-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x3072 : Shape := ⟨2, ![1024, 3072]⟩
abbrev S16x64 : Shape := ⟨2, ![16, 64]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S16x64 : S_.BroadcastsInDim S16x64 (![] : Fin 0 → Fin S16x64.rank)
  reducesTo_S16x64_S_d0_1 : S16x64.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S16x64 .f32) (main_arg5 : FVec F S16x64 .f32) (main_arg6 : FVec F S1024x1024 .f32) (main_arg7 : FVec F S1024 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x4096x1024 .f32) (main_arg1 : FVec F S1024x3072 .f32) (main_arg2 : FVec F S16x64 .f32) (main_arg3 : FVec F S16x64 .f32) (main_arg4 : FVec F S16x64 .f32) (main_arg5 : FVec F S16x64 .f32) (main_arg6 : FVec F S1024x1024 .f32) (main_arg7 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_v13 main_v16
-- ==== Kernel.lean ====
abbrev S4x4096x1024 : Shape := ⟨3, ![4, 4096, 1024]⟩
abbrev S1024x3072 : Shape := ⟨2, ![1024, 3072]⟩
abbrev S16x64 : Shape := ⟨2, ![16, 64]⟩
abbrev S1024x1024 : Shape := ⟨2, ![1024, 1024]⟩
abbrev S1024 : Shape := ⟨1, ![1024]⟩
abbrev S4x16x64x64 : Shape := ⟨4, ![4, 16, 64, 64]⟩
abbrev S1x256x1024 : Shape := ⟨3, ![1, 256, 1024]⟩
abbrev S1x16x64x64 : Shape := ⟨4, ![1, 16, 64, 64]⟩
abbrev S16x64x64 : Shape := ⟨3, ![16, 64, 64]⟩
abbrev S256x1024 : Shape := ⟨2, ![256, 1024]⟩
abbrev S256x16x64 : Shape := ⟨3, ![256, 16, 64]⟩
abbrev S256x16 : Shape := ⟨2, ![256, 16]⟩
abbrev S256x16x1 : Shape := ⟨3, ![256, 16, 1]⟩
abbrev S1x16x64 : Shape := ⟨3, ![1, 16, 64]⟩
abbrev S16x256x64 : Shape := ⟨3, ![16, 256, 64]⟩
abbrev S1x1024 : Shape := ⟨2, ![1, 1024]⟩

abbrev nBuf : Space → Nat
  | .hbm => 17
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S16x64, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S4x16x64x64, .f32⟩
  | .hbm, ⟨16, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S16x64, .f32⟩
  | .local _ .vmem, ⟨5, _⟩ => ⟨S16x64, .f32⟩
  | .local _ .vmem, ⟨6, _⟩ => ⟨S16x64, .f32⟩
  | .local _ .vmem, ⟨7, _⟩ => ⟨S16x64, .f32⟩
  | .local _ .vmem, ⟨8, _⟩ => ⟨S1x16x64x64, .f32⟩
  | .local _ .vmem, ⟨9, _⟩ => ⟨S1x16x64x64, .f32⟩
  | .local _ .vmem, ⟨10, _⟩ => ⟨S1x256x1024, .f32⟩
  | .local _ .vmem, ⟨11, _⟩ => ⟨S1x256x1024, .f32⟩
  | .local _ .vmem, ⟨12, _⟩ => ⟨S1024x1024, .bf16⟩
  | .local _ .vmem, ⟨13, _⟩ => ⟨S1x16x64x64, .f32⟩
  | .local _ .vmem, ⟨14, _⟩ => ⟨S1x16x64x64, .f32⟩
  | .local _ .vmem, ⟨15, _⟩ => ⟨S1024x1024, .bf16⟩
  | .local _ .vmem, ⟨16, _⟩ => ⟨S1024, .f32⟩
  | .local _ .vmem, ⟨17, _⟩ => ⟨S1x256x1024, .f32⟩
  | .local _ .vmem, ⟨18, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x16x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S1024x3072_S1024x1024_0_0 : S1024x3072.Slices ![0, 0] S1024x1024
  slices_S1024x3072_S1024x1024_0_1024 : S1024x3072.Slices ![0, 1024] S1024x1024
  slices_S1024x3072_S1024x1024_0_2048 : S1024x3072.Slices ![0, 2048] S1024x1024
  bitsLt_bf16_f32 : FTy.bits .bf16 < FTy.bits .f32
  inb_S1x16x64x64_S1x16x64x64_0_0_0_0 : ∀ a, (![0, 0, 0, 0] : Fin 4 → Nat) a + S1x16x64x64.size a ≤ S1x16x64x64.size a
  h_S1x16x64x64 : 0 < S1x16x64x64.numel
  shapeCasts_S1x16x64x64_S16x64x64 : S1x16x64x64.ShapeCasts S16x64x64
  shapeCasts_S16x64x64_S1x16x64x64 : S16x64x64.ShapeCasts S1x16x64x64
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x16x64 : S256x1024.ShapeCasts S256x16x64
  inb_S16x64_S16x64_0_0 : ∀ a, (![0, 0] : Fin 2 → Nat) a + S16x64.size a ≤ S16x64.size a
  h_S16x64 : 0 < S16x64.numel
  reduces_S256x16x64_S256x16 : S256x16x64.Reduces [2] S256x16
  shapeCasts_S256x16_S256x16x1 : S256x16.ShapeCasts S256x16x1
  broadcasts_S256x16x1_S256x16x64 : S256x16x1.Broadcasts S256x16x64
  shapeCasts_S16x64_S1x16x64 : S16x64.ShapeCasts S1x16x64
  broadcasts_S1x16x64_S256x16x64 : S1x16x64.Broadcasts S256x16x64
  transposes_S256x16x64_p1_0_2_S16x256x64 : S256x16x64.Transposes [1, 0, 2] S16x256x64
  transposes_S16x256x64_p1_0_2_S256x16x64 : S16x256x64.Transposes [1, 0, 2] S256x16x64
  shapeCasts_S256x16x64_S256x1024 : S256x16x64.ShapeCasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S16x256x64_S16x256x64_S16x64x64_1_1_2_2_0_0_wf : DotDims.WF S16x256x64 S16x256x64 S16x64x64 [1] [1] [2] [2] [0] [0]
  dot_S16x256x64_S16x64x64_S16x256x64_2_1_1_2_0_0_wf : DotDims.WF S16x256x64 S16x64x64 S16x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x64.size a ≤ S16x64.size a
  hwx0_6 : ∀ i : grid0.Coords, EltTy.bits .f32 = 32 ∨ (Rect.block (s := S16x64) S16x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x64x64.size a ≤ S4x16x64x64.size a
  hwx0_7 : ∀ i : grid0.Coords, EltTy.bits .f32 = 32 ∨ (Rect.block (s := S4x16x64x64) S1x16x64x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x4096x1024.size a
  hwx1_0 : ∀ i : grid1.Coords, EltTy.bits .f32 = 32 ∨ (Rect.block (s := S4x4096x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x64x64.size a ≤ S4x16x64x64.size a
  hwx1_2 : ∀ i : grid1.Coords, EltTy.bits .f32 = 32 ∨ (Rect.block (s := S4x16x64x64) S1x16x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x4096x1024.size a
  hwx1_5 : ∀ i : grid1.Coords, EltTy.bits .f32 = 32 ∨ (Rect.block (s := S4x4096x1024) S1x256x1024.size (cc1_transform_5 i) (hinb1_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S16x256x64_S16x256x64_S16x64x64_1_1_2_2_0_0 : DotDims S16x256x64 S16x256x64 S16x64x64 where
  lhsContracting := [1]
  rhsContracting := [1]
  lhsNonContracting := [2]
  rhsNonContracting := [2]
  lhsBatch := [0]
  rhsBatch := [0]
  wf := dot_S16x256x64_S16x256x64_S16x64x64_1_1_2_2_0_0_wf
def dot_S16x256x64_S16x64x64_S16x256x64_2_1_1_2_0_0 : DotDims S16x256x64 S16x64x64 S16x256x64 where
  lhsContracting := [2]
  rhsContracting := [1]
  lhsNonContracting := [1]
  rhsNonContracting := [2]
  lhsBatch := [0]
  rhsBatch := [0]
  wf := dot_S16x256x64_S16x64x64_S16x256x64_2_1_1_2_0_0_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S16x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x16x64x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x16x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x3072 : Shape := ⟨2, ![1024, 3072]⟩
abbrev S16x64 : Shape := ⟨2, ![16, 64]⟩
abbrev S1024x1024 : Shape := ⟨2, ![1024, 1024]⟩
abbrev S1024 : Shape := ⟨1, ![1024]⟩
abbrev S4x4096x3072 : Shape := ⟨3, ![4, 4096, 3072]⟩
abbrev S4x4096x16x64 : Shape := ⟨4, ![4, 4096, 16, 64]⟩
abbrev S4x16x4096x64 : Shape := ⟨4, ![4, 16, 4096, 64]⟩
abbrev S_ : Shape := ⟨0, ![]⟩
abbrev S4x16x4096 : Shape := ⟨3, ![4, 16, 4096]⟩
abbrev S4x16x4096x1 : Shape := ⟨4, ![4, 16, 4096, 1]⟩
abbrev S1x16x1x64 : Shape := ⟨4, ![1, 16, 1, 64]⟩
abbrev S4x16x64x64 : Shape := ⟨4, ![4, 16, 64, 64]⟩
abbrev S1x1x1024 : Shape := ⟨3, ![1, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S16x64, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S1024x1024, .f32⟩
  | .hbm, ⟨7, _⟩ => ⟨S1024, .f32⟩
  | .hbm, ⟨8, _⟩ => ⟨S4x4096x3072, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x16x64, .f32⟩
  | .hbm, ⟨13, _⟩ => ⟨S4x16x4096x64, .f32⟩
  | .hbm, ⟨14, _⟩ => ⟨S4x4096x16x64, .f32⟩
  | .hbm, ⟨15, _⟩ => ⟨S4x16x4096x64, .f32⟩
  | .hbm, ⟨16, _⟩ => ⟨S4x4096x16x64, .f32⟩
  | .hbm, ⟨17, _⟩ => ⟨S4x16x4096x64, .f32⟩
  | .hbm, ⟨18, _⟩ => ⟨S_, .f32⟩
  | .hbm, ⟨19, _⟩ => ⟨S4x16x4096, .f32⟩
  | .hbm, ⟨20, _⟩ => ⟨S4x16x4096x1, .f32⟩
  | .hbm, ⟨21, _⟩ => ⟨S_, .f32⟩
  | .hbm, ⟨22, _⟩ => ⟨S4x16x4096x1, .f32⟩
  | .hbm, ⟨23, _⟩ => ⟨S4x16x4096x1, .f32⟩
  | .hbm, ⟨24, _⟩ => ⟨S4x16x4096x64, .f32⟩
  | .hbm, ⟨25, _⟩ => ⟨S4x16x4096x64, .f32⟩
  | .hbm, ⟨26, _⟩ => ⟨S4x16x4096x64, .f32⟩
  | .hbm, ⟨27, _⟩ => ⟨S_, .f32⟩
  | .hbm, ⟨28, _⟩ => ⟨S4x16x4096, .f32⟩
  | .hbm, ⟨29, _⟩ => ⟨S4x16x4096x1, .f32⟩
  | .hbm, ⟨30, _⟩ => ⟨S_, .f32⟩
  | .hbm, ⟨31, _⟩ => ⟨S4x16x4096x1, .f32⟩
  | .hbm, ⟨32, _⟩ => ⟨S4x16x4096x1, .f32⟩
  | .hbm, ⟨33, _⟩ => ⟨S4x16x4096x64, .f32⟩
  | .hbm, ⟨34, _⟩ => ⟨S4x16x4096x64, .f32⟩
  | .hbm, ⟨35, _⟩ => ⟨S_, .f32⟩
  | .hbm, ⟨36, _⟩ => ⟨S4x16x4096x1, .f32⟩
  | .hbm, ⟨37, _⟩ => ⟨S4x16x4096x1, .f32⟩
  | .hbm, ⟨38, _⟩ => ⟨S4x16x4096x1, .f32⟩
  | .hbm, ⟨39, _⟩ => ⟨S4x16x4096x64, .f32⟩
  | .hbm, ⟨40, _⟩ => ⟨S4x16x4096x64, .f32⟩
  | .hbm, ⟨41, _⟩ => ⟨S1x16x1x64, .f32⟩
  | .hbm, ⟨42, _⟩ => ⟨S4x16x4096x64, .f32⟩
  | .hbm, ⟨43, _⟩ => ⟨S4x16x4096x64, .f32⟩
  | .hbm, ⟨44, _⟩ => ⟨S1x16x1x64, .f32⟩
  | .hbm, ⟨45, _⟩ => ⟨S4x16x4096x64, .f32⟩
  | .hbm, ⟨46, _⟩ => ⟨S4x16x4096x64, .f32⟩
  | .hbm, ⟨47, _⟩ => ⟨S_, .f32⟩
  | .hbm, ⟨48, _⟩ => ⟨S4x16x4096, .f32⟩
  | .hbm, ⟨49, _⟩ => ⟨S4x16x4096x1, .f32⟩
  | .hbm, ⟨50, _⟩ => ⟨S_, .f32⟩
  | .hbm, ⟨51, _⟩ => ⟨S4x16x4096x1, .f32⟩
  | .hbm, ⟨52, _⟩ => ⟨S4x16x4096x1, .f32⟩
  | .hbm, ⟨53, _⟩ => ⟨S4x16x4096x64, .f32⟩
  | .hbm, ⟨54, _⟩ => ⟨S4x16x4096x64, .f32⟩
  | .hbm, ⟨55, _⟩ => ⟨S4x16x4096x64, .f32⟩
  | .hbm, ⟨56, _⟩ => ⟨S_, .f32⟩
  | .hbm, ⟨57, _⟩ => ⟨S4x16x4096, .f32⟩
  | .hbm, ⟨58, _⟩ => ⟨S4x16x4096x1, .f32⟩
  | .hbm, ⟨59, _⟩ => ⟨S_, .f32⟩
  | .hbm, ⟨60, _⟩ => ⟨S4x16x4096x1, .f32⟩
  | .hbm, ⟨61, _⟩ => ⟨S4x16x4096x1, .f32⟩
  | .hbm, ⟨62, _⟩ => ⟨S4x16x4096x64, .f32⟩
  | .hbm, ⟨63, _⟩ => ⟨S4x16x4096x64, .f32⟩
  | .hbm, ⟨64, _⟩ => ⟨S_, .f32⟩
  | .hbm, ⟨65, _⟩ => ⟨S4x16x4096x1, .f32⟩
  | .hbm, ⟨66, _⟩ => ⟨S4x16x4096x1, .f32⟩
  | .hbm, ⟨67, _⟩ => ⟨S4x16x4096x1, .f32⟩
  | .hbm, ⟨68, _⟩ => ⟨S4x16x4096x64, .f32⟩
  | .hbm, ⟨69, _⟩ => ⟨S4x16x4096x64, .f32⟩
  | .hbm, ⟨70, _⟩ => ⟨S1x16x1x64, .f32⟩
  | .hbm, ⟨71, _⟩ => ⟨S4x16x4096x64, .f32⟩
  | .hbm, ⟨72, _⟩ => ⟨S4x16x4096x64, .f32⟩
  | .hbm, ⟨73, _⟩ => ⟨S1x16x1x64, .f32⟩
  | .hbm, ⟨74, _⟩ => ⟨S4x16x4096x64, .f32⟩
  | .hbm, ⟨75, _⟩ => ⟨S4x16x4096x64, .f32⟩
  | .hbm, ⟨76, _⟩ => ⟨S4x16x64x64, .f32⟩
  | .hbm, ⟨77, _⟩ => ⟨S_, .f32⟩
  | .hbm, ⟨78, _⟩ => ⟨S4x16x64x64, .f32⟩
  | .hbm, ⟨79, _⟩ => ⟨S4x16x64x64, .f32⟩
  | .hbm, ⟨80, _⟩ => ⟨S4x16x4096x64, .f32⟩
  | .hbm, ⟨81, _⟩ => ⟨S4x4096x16x64, .f32⟩
  | .hbm, ⟨82, _⟩ => ⟨S4x4096x1024, .f32⟩
  | .hbm, ⟨83, _⟩ => ⟨S4x4096x1024, .f32⟩
  | .hbm, ⟨84, _⟩ => ⟨S1x1x1024, .f32⟩
  | .hbm, ⟨85, _⟩ => ⟨S4x4096x1024, .f32⟩
  | .hbm, ⟨86, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]

class Facts₀ : Prop where
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  reducesTo_S4x16x4096x64_S4x16x4096_d3 : S4x16x4096x64.ReducesTo [3] S4x16x4096
  h_S_ : 0 < S_.numel
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  bcast_S4x16x4096x1_S4x16x4096x64_0_1_2_3 : S4x16x4096x1.BroadcastsInDim S4x16x4096x64 (![0, 1, 2, 3] : Fin 4 → Fin S4x16x4096x64.rank)
  bcast_S16x64_S1x16x1x64_1_3 : S16x64.BroadcastsInDim S1x16x1x64 (![1, 3] : Fin 2 → Fin S1x16x1x64.rank)
  bcast_S1x16x1x64_S4x16x4096x64_0_1_2_3 : S1x16x1x64.BroadcastsInDim S4x16x4096x64 (![0, 1, 2, 3] : Fin 4 → Fin S4x16x4096x64.rank)
  bcast_S_S4x16x64x64 : S_.BroadcastsInDim S4x16x64x64 (![] : Fin 0 → Fin S4x16x64x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x3072_S4x4096x3072_2_0_01_1_n_n_wf : DotDims.WF S4x4096x1024 S1024x3072 S4x4096x3072 [2] [0] [0, 1] [1] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]
  dot_S4x4096x1024_S1024x1024_S4x4096x1024_2_0_01_1_n_n_wf : DotDims.WF S4x4096x1024 S1024x1024 S4x4096x1024 [2] [0] [0, 1] [1] [] []

variable [Facts₀]

def dot_S4x4096x1024_S1024x3072_S4x4096x3072_2_0_01_1_n_n : DotDims S4x4096x1024 S1024x3072 S4x4096x3072 where
  lhsContracting := [2]
  rhsContracting := [0]
  lhsNonContracting := [0, 1]
  rhsNonContracting := [1]
  lhsBatch := []
  rhsBatch := []
  wf := dot_S4x4096x1024_S1024x3072_S4x4096x3072_2_0_01_1_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf
def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf

class Facts : Prop extends Facts₀ where

variable [Facts]
-- ==== Proof.Spec.lean ====
/-
  The mathematics both programs compute, as functions on the extended reals, index by index.

  Tokens `x[b, n, ·]` (4 batches of 4096 tokens, 1024 features) are projected by three 1024 × 1024 matrices
  (the thirds of the joint weight) and each projection is cut into 16 heads of 64 lanes: lane `d` of head `h` is
  column `64 h + d`. The key and value heads are normalised over their 64 lanes (mean, biased variance, an epsilon,
  the reciprocal square root, a per-head scale and shift). The per-head score matrix is the sum over ALL 4096 tokens of
  key lane × value lane, divided by 4096. A query head times that matrix is the attended head; the heads laid side by
  side (column `k` is lane `k % 64` of head `k / 64`) go through the output matrix, plus a bias.
-/
import Idealize.ShloMosaic.PureOps.Ideal
import Idealize.ShloMosaic.Lib.ValueIdx

noncomputable section

namespace Cert.LinAttn

open Idealize.ShloMosaic Idealize.ShloMosaic.ValueIdx

/-- Tokens, and the result: batch × token × feature. -/
abbrev TX := (⟨3, ![4, 4096, 1024]⟩ : Shape).Idx → EReal
/-- The joint weight: feature × (three thirds side by side). -/
abbrev TW3 := (⟨2, ![1024, 3072]⟩ : Shape).Idx → EReal
/-- One square matrix: a third of the joint weight, or the output matrix. -/
abbrev TW := (⟨2, ![1024, 1024]⟩ : Shape).Idx → EReal
/-- A per-head scale or shift: head × lane. -/
abbrev TG := (⟨2, ![16, 64]⟩ : Shape).Idx → EReal
/-- The output bias. -/
abbrev TB := (⟨1, ![1024]⟩ : Shape).Idx → EReal
/-- The score matrices: batch × head × key lane × value lane. -/
abbrev TS := (⟨4, ![4, 16, 64, 64]⟩ : Shape).Idx → EReal

/-- The third of the joint weight that starts at column `off`. -/
def third (w : TW3) (off : Nat) (hoff : off ≤ 2048) : TW :=
  fun i => w (ix2 (i 0) ⟨off + (i 1).val, by have h1 : (i 1).val < 1024 := (i 1).isLt; omega⟩)

/-- Lane `d` of head `h` is column `64 h + d`. -/
def hcol (h : Fin 16) (d : Fin 64) : Fin 1024 := ⟨64 * h.val + d.val, by omega⟩

/-- Token `(b, n)` projected by `wm`, read at lane `d` of head `h`. -/
def head (x : TX) (wm : TW) (b : Fin 4) (n : Fin 4096) (h : Fin 16) (d : Fin 64) : EReal :=
  ∑ k : Fin 1024, x (ix3 b n k) * wm (ix2 k (hcol h d))

/-- The literals, kept as words: 64, 1e-5 as the float nearest to it, 4096. -/
def c64 : EReal := Ideal.ofBits .f32 0x42800000#32
def eps : EReal := Ideal.ofBits .f32 0x3727C5AC#32
def c4096 : EReal := Ideal.ofBits .f32 0x45800000#32

/-- The mean of 64 lanes. -/
def mean (t : Fin 64 → EReal) : EReal := Ideal.div (∑ d : Fin 64, t d) c64

/-- Normalisation of 64 lanes with scale `g` and shift `be`, read at lane `d`. -/
def lnorm (t g be : Fin 64 → EReal) (d : Fin 64) : EReal :=
  (t d - mean t) * Ideal.rsqrt (mean (fun e => (t e - mean t) * (t e - mean t)) + eps) * g d + be d

/-- A normalised head of token `(b, n)`. -/
def normed (x : TX) (wm : TW) (g be : TG) (b : Fin 4) (n : Fin 4096) (h : Fin 16) (d : Fin 64) : EReal :=
  lnorm (fun e => head x wm b n h e) (fun e => g (ix2 h e)) (fun e => be (ix2 h e)) d

/-- The score matrices: over all tokens, key lane × value lane, divided by the number of tokens. -/
def scores (x : TX) (wk wv : TW) (gk bk gv bv : TG) : TS := fun i =>
  Ideal.div (∑ n : Fin 4096, normed x wk gk bk (i 0) n (i 1) (i 2) * normed x wv gv bv (i 0) n (i 1) (i 3)) c4096

/-- A query head against its score matrix. -/
def attn (x : TX) (wq : TW) (s : TS) (b : Fin 4) (n : Fin 4096) (h : Fin 16) (e : Fin 64) : EReal :=
  ∑ d : Fin 64, head x wq b n h d * s (ix4 b h d e)

/-- The heads side by side through the output matrix, plus the bias. -/
def out (x : TX) (wq : TW) (s : TS) (wo : TW) (bo : TB) : TX := fun i =>
  (∑ k : Fin 1024, attn x wq s (i 0) (i 1) ⟨k.val / 64, by have := k.isLt; omega⟩ ⟨k.val % 64, by omega⟩ * wo (ix2 k (i 2)))
    + bo (ix1 (i 2))

/-- The whole computation from the eight arguments. -/
def result (x : TX) (w : TW3) (gk bk gv bv : TG) (wo : TW) (bo : TB) : TX :=
  out x (third w 0 (by omega)) (scores x (third w 1024 (by omega)) (third w 2048 (by omega)) gk bk gv bv) wo bo

end Cert.LinAttn

end
-- ==== Proof.RefHead.lean ====
/-
  The reference's query, key and value heads are the specification's heads.

  The reference multiplies the tokens by the joint weight (1024 × 3072), cuts the product into its three thirds of 1024
  columns, regroups each third's 1024 columns as 16 heads of 64 lanes and moves the head axis in front of the token axis.
  Read at (batch b, head h, token n, lane d), the third starting at column `off` is therefore the product's column
  `off + 64 h + d`: the sum over the 1024 features of token (b, n) times the third's column `64 h + d`, which is the
  specification's `head`.
-/
import proofs.«139104_j27487790695180_1_alg».proof.Proof.Gen.ReferenceIdeal.Read
import proofs.«139104_j27487790695180_1_alg».proof.Proof.Spec

noncomputable section

namespace Cert.LinAttn.Ref

open Cert.ReferenceIdeal Cert.ReferenceIdeal.Read Idealize.ShloMosaic Idealize.ShloMosaic.ValueIdx

variable (x0 : (⟨S4x4096x1024, .f32⟩ : BufTy).Contents (Elt Ideal)) (x1 : (⟨S1024x3072, .f32⟩ : BufTy).Contents (Elt Ideal))

/-- The joint product at row (b, n) and column `off + c` is token (b, n) against column `c` of the third starting at
    `off`, summed over the features. -/
theorem proj_third (off : Nat) (hoff : off ≤ 2048) (b : Fin 4) (n : Fin 4096) (c : Fin 1024) (j : S4x4096x3072.Idx)
    (h0 : (j 0).val = b.val) (h1 : (j 1).val = n.val) (h2 : (j 2).val = off + c.val) :
    val_main_v0 (F := Ideal) x0 x1 j = ∑ k : Fin 1024, x0 (ix3 b n k) * third x1 off hoff (ix2 k c) := by
  rw [val_main_v0_apply]
  refine Finset.sum_congr rfl fun k _ => ?_
  have el : lidx_main_v0 j k = ix3 b n k := funext fun a => Fin.ext (by
    match a with
    | ⟨0, _⟩ => exact h0
    | ⟨1, _⟩ => exact h1
    | ⟨2, _⟩ => rfl)
  have er : ridx_main_v0 j k = ix2 k ⟨off + c.val, by have := c.isLt; omega⟩ := funext fun a => Fin.ext (by
    match a with
    | ⟨0, _⟩ => rfl
    | ⟨1, _⟩ => exact h2)
  rw [el, er]
  rfl

/-- The query heads: the first third. -/
theorem v5_ix (b : Fin 4) (h : Fin 16) (n : Fin 4096) (d : Fin 64) :
    val_main_v5 (F := Ideal) x0 x1 (ix4 b h n d) = head x0 (third x1 0 (by omega)) b n h d := by
  have hb := b.isLt; have hh := h.isLt; have hn := n.isLt; have hd := d.isLt
  rw [val_main_v5_apply, val_main_v4_apply, val_main_v1_apply]
  unfold head
  refine proj_third x0 x1 0 _ b n (hcol h d) _ ?_ ?_ ?_
  · show (((b.val * 4096 + n.val) * 16 + h.val) * 64 + d.val) / 4194304 = b.val
    omega
  · show (((b.val * 4096 + n.val) * 16 + h.val) * 64 + d.val) / 1024 % 4096 = n.val
    omega
  · show (((b.val * 4096 + n.val) * 16 + h.val) * 64 + d.val) % 1024 = 0 + (64 * h.val + d.val)
    omega

/-- The key heads: the second third. -/
theorem v7_ix (b : Fin 4) (h : Fin 16) (n : Fin 4096) (d : Fin 64) :
    val_main_v7 (F := Ideal) x0 x1 (ix4 b h n d) = head x0 (third x1 1024 (by omega)) b n h d := by
  have hb := b.isLt; have hh := h.isLt; have hn := n.isLt; have hd := d.isLt
  rw [val_main_v7_apply, val_main_v6_apply, val_main_v2_apply]
  unfold head
  refine proj_third x0 x1 1024 _ b n (hcol h d) _ ?_ ?_ ?_
  · show (((b.val * 4096 + n.val) * 16 + h.val) * 64 + d.val) / 4194304 = b.val
    omega
  · show (((b.val * 4096 + n.val) * 16 + h.val) * 64 + d.val) / 1024 % 4096 = n.val
    omega
  · show 1024 + (((b.val * 4096 + n.val) * 16 + h.val) * 64 + d.val) % 1024 = 1024 + (64 * h.val + d.val)
    omega

/-- The value heads: the last third. -/
theorem v9_ix (b : Fin 4) (h : Fin 16) (n : Fin 4096) (d : Fin 64) :
    val_main_v9 (F := Ideal) x0 x1 (ix4 b h n d) = head x0 (third x1 2048 (by omega)) b n h d := by
  have hb := b.isLt; have hh := h.isLt; have hn := n.isLt; have hd := d.isLt
  rw [val_main_v9_apply, val_main_v8_apply, val_main_v3_apply]
  unfold head
  refine proj_third x0 x1 2048 _ b n (hcol h d) _ ?_ ?_ ?_
  · show (((b.val * 4096 + n.val) * 16 + h.val) * 64 + d.val) / 4194304 = b.val
    omega
  · show (((b.val * 4096 + n.val) * 16 + h.val) * 64 + d.val) / 1024 % 4096 = n.val
    omega
  · show 2048 + (((b.val * 4096 + n.val) * 16 + h.val) * 64 + d.val) % 1024 = 2048 + (64 * h.val + d.val)
    omega

end Cert.LinAttn.Ref

end
-- ==== Proof.RefNormK.lean ====
/-
  The reference's normalised key heads are the specification's.

  For each (batch b, head h, token n) the reference sums the head's 64 lanes (starting from the zero word), divides by
  the word for 64 to get the mean, subtracts the mean from each lane, squares, sums and divides by 64 again for the
  biased variance, adds the epsilon word, takes the reciprocal square root, and multiplies the centred lane by it, then
  by the head's scale, and adds the head's shift. The scale and shift (16 × 64) are broadcast over batch and token, so
  lane d of head h reads them at (h, d).
-/
import proofs.«139104_j27487790695180_1_alg».proof.Proof.RefHead

noncomputable section

namespace Cert.LinAttn.Ref

open Cert.ReferenceIdeal Cert.ReferenceIdeal.Read Idealize.ShloMosaic Idealize.ShloMosaic.ValueIdx

/-- An index with four coordinates is determined by the coordinates' values. -/
theorem ix4_of_val {n0 n1 n2 n3 : Nat} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d :=
  funext fun t => Fin.ext (by
    match t with
    | ⟨0, _⟩ => exact h0
    | ⟨1, _⟩ => exact h1
    | ⟨2, _⟩ => exact h2
    | ⟨3, _⟩ => exact h3)

/-- An index with two coordinates is determined by the coordinates' values. -/
theorem ix2_of_val {n0 n1 : Nat} (j : (⟨2, ![n0, n1]⟩ : Shape).Idx) (a : Fin n0) (b : Fin n1)
    (h0 : (j 0).val = a.val) (h1 : (j 1).val = b.val) : j = ix2 a b :=
  funext fun t => Fin.ext (by
    match t with
    | ⟨0, _⟩ => exact h0
    | ⟨1, _⟩ => exact h1)

variable (x0 : (⟨S4x4096x1024, .f32⟩ : BufTy).Contents (Elt Ideal)) (x1 : (⟨S1024x3072, .f32⟩ : BufTy).Contents (Elt Ideal))
  (x2 x3 : (⟨S16x64, .f32⟩ : BufTy).Contents (Elt Ideal))

/-- The sum of the 64 lanes of the key head (b, h, n). -/
theorem v10_at (m : S4x16x4096.Idx) (b : Fin 4) (h : Fin 16) (n : Fin 4096)
    (h0 : (m 0).val = b.val) (h1 : (m 1).val = h.val) (h2 : (m 2).val = n.val) :
    val_main_v10 (F := Ideal) x0 x1 m = ∑ e : Fin 64, head x0 (third x1 1024 (by omega)) b n h e := by
  rw [val_main_v10_apply, val_main_cst_apply, Ideal.ofBits_def, Ideal.ofBits_zero_f32, zero_add]
  refine Finset.sum_congr rfl fun e _ => ?_
  rw [ix4_of_val (idx_main_v10 m e) b h n e h0 h1 h2 rfl, v7_ix]

/-- The mean of the key head (b, h, n), at any index of the column kept over (b, h, n). -/
theorem v13_at (j : S4x16x4096x1.Idx) (b : Fin 4) (h : Fin 16) (n : Fin 4096)
    (h0 : (j 0).val = b.val) (h1 : (j 1).val = h.val) (h2 : (j 2).val = n.val) :
    val_main_v13 (F := Ideal) x0 x1 j = mean (fun e => head x0 (third x1 1024 (by omega)) b n h e) := by
  rw [val_main_v13_apply, val_main_v11_apply, val_main_v12_apply, val_main_cst_0_apply,
    v10_at x0 x1 (idx_main_v11 j) b h n h0 h1 h2]
  rfl

/-- A key lane minus its head's mean (the copy that is squared). -/
theorem v15_ix (b : Fin 4) (h : Fin 16) (n : Fin 4096) (d : Fin 64) :
    val_main_v15 (F := Ideal) x0 x1 (ix4 b h n d) =
      head x0 (third x1 1024 (by omega)) b n h d - mean (fun e => head x0 (third x1 1024 (by omega)) b n h e) := by
  rw [val_main_v15_apply, val_main_v14_apply, v7_ix,
    v13_at x0 x1 (idx_main_v14 (ix4 b h n d)) b h n rfl rfl rfl]
  rfl

/-- A key lane minus its head's mean (the copy that is scaled). -/
theorem v22_ix (b : Fin 4) (h : Fin 16) (n : Fin 4096) (d : Fin 64) :
    val_main_v22 (F := Ideal) x0 x1 (ix4 b h n d) =
      head x0 (third x1 1024 (by omega)) b n h d - mean (fun e => head x0 (third x1 1024 (by omega)) b n h e) := by
  rw [val_main_v22_apply, val_main_v21_apply, v7_ix,
    v13_at x0 x1 (idx_main_v21 (ix4 b h n d)) b h n rfl rfl rfl]
  rfl

/-- The sum of the squared centred lanes of the key head (b, h, n). -/
theorem v17_at (m : S4x16x4096.Idx) (b : Fin 4) (h : Fin 16) (n : Fin 4096)
    (h0 : (m 0).val = b.val) (h1 : (m 1).val = h.val) (h2 : (m 2).val = n.val) :
    val_main_v17 (F := Ideal) x0 x1 m = ∑ e : Fin 64,
      (head x0 (third x1 1024 (by omega)) b n h e - mean (fun e => head x0 (third x1 1024 (by omega)) b n h e)) *
      (head x0 (third x1 1024 (by omega)) b n h e - mean (fun e => head x0 (third x1 1024 (by omega)) b n h e)) := by
  rw [val_main_v17_apply, val_main_cst_1_apply, Ideal.ofBits_def, Ideal.ofBits_zero_f32, zero_add]
  refine Finset.sum_congr rfl fun e _ => ?_
  rw [ix4_of_val (idx_main_v17 m e) b h n e h0 h1 h2 rfl, val_main_v16_apply, v15_ix]
  rfl

/-- The reciprocal square root of the key head's variance plus epsilon. -/
theorem v25_at (j : S4x16x4096x1.Idx) (b : Fin 4) (h : Fin 16) (n : Fin 4096)
    (h0 : (j 0).val = b.val) (h1 : (j 1).val = h.val) (h2 : (j 2).val = n.val) :
    val_main_v25 (F := Ideal) x0 x1 j = Ideal.rsqrt (mean (fun e =>
      (head x0 (third x1 1024 (by omega)) b n h e - mean (fun e => head x0 (third x1 1024 (by omega)) b n h e)) *
      (head x0 (third x1 1024 (by omega)) b n h e - mean (fun e => head x0 (third x1 1024 (by omega)) b n h e))) + eps) := by
  rw [val_main_v25_apply, val_main_v24_apply, val_main_v20_apply, val_main_v18_apply, val_main_v19_apply,
    val_main_cst_2_apply, val_main_v23_apply, val_main_cst_3_apply, v17_at x0 x1 (idx_main_v18 j) b h n h0 h1 h2]
  rfl

/-- The normalised key heads. -/
theorem v33_ix (b : Fin 4) (h : Fin 16) (n : Fin 4096) (d : Fin 64) :
    val_main_v33 (F := Ideal) x0 x1 x2 x3 (ix4 b h n d) = normed x0 (third x1 1024 (by omega)) x2 x3 b n h d := by
  rw [val_main_v33_apply, val_main_v30_apply, val_main_v27_apply, v22_ix, val_main_v26_apply,
    v25_at x0 x1 (idx_main_v26 (ix4 b h n d)) b h n rfl rfl rfl, val_main_v29_apply, val_main_v28_apply,
    val_main_v32_apply, val_main_v31_apply,
    ix2_of_val (idx_main_v28 (idx_main_v29 (ix4 b h n d))) h d rfl rfl,
    ix2_of_val (idx_main_v31 (idx_main_v32 (ix4 b h n d))) h d rfl rfl]
  rfl

end Cert.LinAttn.Ref

end
-- ==== Proof.RefNormV.lean ====
/-
  The reference's normalised value heads are the specification's.

  The same chain of operations as for the keys, on the last third of the joint product and with the value scale and
  shift. For each (batch b, head h, token n) the reference sums the head's 64 lanes (starting from the zero word), divides by
  the word for 64 to get the mean, subtracts the mean from each lane, squares, sums and divides by 64 again for the
  biased variance, adds the epsilon word, takes the reciprocal square root, and multiplies the centred lane by it, then
  by the head's scale, and adds the head's shift. The scale and shift (16 × 64) are broadcast over batch and token, so
  lane d of head h reads them at (h, d).
-/
import proofs.«139104_j27487790695180_1_alg».proof.Proof.RefNormK

noncomputable section

namespace Cert.LinAttn.Ref

open Cert.ReferenceIdeal Cert.ReferenceIdeal.Read Idealize.ShloMosaic Idealize.ShloMosaic.ValueIdx

variable (x0 : (⟨S4x4096x1024, .f32⟩ : BufTy).Contents (Elt Ideal)) (x1 : (⟨S1024x3072, .f32⟩ : BufTy).Contents (Elt Ideal))
  (x4 x5 : (⟨S16x64, .f32⟩ : BufTy).Contents (Elt Ideal))

/-- The sum of the 64 lanes of the value head (b, h, n). -/
theorem v34_at (m : S4x16x4096.Idx) (b : Fin 4) (h : Fin 16) (n : Fin 4096)
    (h0 : (m 0).val = b.val) (h1 : (m 1).val = h.val) (h2 : (m 2).val = n.val) :
    val_main_v34 (F := Ideal) x0 x1 m = ∑ e : Fin 64, head x0 (third x1 2048 (by omega)) b n h e := by
  rw [val_main_v34_apply, val_main_cst_4_apply, Ideal.ofBits_def, Ideal.ofBits_zero_f32, zero_add]
  refine Finset.sum_congr rfl fun e _ => ?_
  rw [ix4_of_val (idx_main_v34 m e) b h n e h0 h1 h2 rfl, v9_ix]

/-- The mean of the value head (b, h, n), at any index of the column kept over (b, h, n). -/
theorem v37_at (j : S4x16x4096x1.Idx) (b : Fin 4) (h : Fin 16) (n : Fin 4096)
    (h0 : (j 0).val = b.val) (h1 : (j 1).val = h.val) (h2 : (j 2).val = n.val) :
    val_main_v37 (F := Ideal) x0 x1 j = mean (fun e => head x0 (third x1 2048 (by omega)) b n h e) := by
  rw [val_main_v37_apply, val_main_v35_apply, val_main_v36_apply, val_main_cst_5_apply,
    v34_at x0 x1 (idx_main_v35 j) b h n h0 h1 h2]
  rfl

/-- A value lane minus its head's mean (the copy that is squared). -/
theorem v39_ix (b : Fin 4) (h : Fin 16) (n : Fin 4096) (d : Fin 64) :
    val_main_v39 (F := Ideal) x0 x1 (ix4 b h n d) =
      head x0 (third x1 2048 (by omega)) b n h d - mean (fun e => head x0 (third x1 2048 (by omega)) b n h e) := by
  rw [val_main_v39_apply, val_main_v38_apply, v9_ix,
    v37_at x0 x1 (idx_main_v38 (ix4 b h n d)) b h n rfl rfl rfl]
  rfl

/-- A value lane minus its head's mean (the copy that is scaled). -/
theorem v46_ix (b : Fin 4) (h : Fin 16) (n : Fin 4096) (d : Fin 64) :
    val_main_v46 (F := Ideal) x0 x1 (ix4 b h n d) =
      head x0 (third x1 2048 (by omega)) b n h d - mean (fun e => head x0 (third x1 2048 (by omega)) b n h e) := by
  rw [val_main_v46_apply, val_main_v45_apply, v9_ix,
    v37_at x0 x1 (idx_main_v45 (ix4 b h n d)) b h n rfl rfl rfl]
  rfl

/-- The sum of the squared centred lanes of the value head (b, h, n). -/
theorem v41_at (m : S4x16x4096.Idx) (b : Fin 4) (h : Fin 16) (n : Fin 4096)
    (h0 : (m 0).val = b.val) (h1 : (m 1).val = h.val) (h2 : (m 2).val = n.val) :
    val_main_v41 (F := Ideal) x0 x1 m = ∑ e : Fin 64,
      (head x0 (third x1 2048 (by omega)) b n h e - mean (fun e => head x0 (third x1 2048 (by omega)) b n h e)) *
      (head x0 (third x1 2048 (by omega)) b n h e - mean (fun e => head x0 (third x1 2048 (by omega)) b n h e)) := by
  rw [val_main_v41_apply, val_main_cst_6_apply, Ideal.ofBits_def, Ideal.ofBits_zero_f32, zero_add]
  refine Finset.sum_congr rfl fun e _ => ?_
  rw [ix4_of_val (idx_main_v41 m e) b h n e h0 h1 h2 rfl, val_main_v40_apply, v39_ix]
  rfl

/-- The reciprocal square root of the value head's variance plus epsilon. -/
theorem v49_at (j : S4x16x4096x1.Idx) (b : Fin 4) (h : Fin 16) (n : Fin 4096)
    (h0 : (j 0).val = b.val) (h1 : (j 1).val = h.val) (h2 : (j 2).val = n.val) :
    val_main_v49 (F := Ideal) x0 x1 j = Ideal.rsqrt (mean (fun e =>
      (head x0 (third x1 2048 (by omega)) b n h e - mean (fun e => head x0 (third x1 2048 (by omega)) b n h e)) *
      (head x0 (third x1 2048 (by omega)) b n h e - mean (fun e => head x0 (third x1 2048 (by omega)) b n h e))) + eps) := by
  rw [val_main_v49_apply, val_main_v48_apply, val_main_v44_apply, val_main_v42_apply, val_main_v43_apply,
    val_main_cst_7_apply, val_main_v47_apply, val_main_cst_8_apply, v41_at x0 x1 (idx_main_v42 j) b h n h0 h1 h2]
  rfl

/-- The normalised value heads. -/
theorem v57_ix (b : Fin 4) (h : Fin 16) (n : Fin 4096) (d : Fin 64) :
    val_main_v57 (F := Ideal) x0 x1 x4 x5 (ix4 b h n d) = normed x0 (third x1 2048 (by omega)) x4 x5 b n h d := by
  rw [val_main_v57_apply, val_main_v54_apply, val_main_v51_apply, v46_ix, val_main_v50_apply,
    v49_at x0 x1 (idx_main_v50 (ix4 b h n d)) b h n rfl rfl rfl, val_main_v53_apply, val_main_v52_apply,
    val_main_v56_apply, val_main_v55_apply,
    ix2_of_val (idx_main_v52 (idx_main_v53 (ix4 b h n d))) h d rfl rfl,
    ix2_of_val (idx_main_v55 (idx_main_v56 (ix4 b h n d))) h d rfl rfl]
  rfl

end Cert.LinAttn.Ref

end
-- ==== Proof.RefScores.lean ====
/-
  The reference's score matrices are the specification's.

  Per (batch b, head h) the reference contracts the normalised keys with the normalised values over the 4096 tokens:
  entry (d, e) is the sum over the tokens n of key lane d times value lane e. It then divides every entry by the word
  for 4096.
-/
import proofs.«139104_j27487790695180_1_alg».proof.Proof.RefNormV

noncomputable section

namespace Cert.LinAttn.Ref

open Cert.ReferenceIdeal Cert.ReferenceIdeal.Read Idealize.ShloMosaic Idealize.ShloMosaic.ValueIdx

variable (x0 : (⟨S4x4096x1024, .f32⟩ : BufTy).Contents (Elt Ideal)) (x1 : (⟨S1024x3072, .f32⟩ : BufTy).Contents (Elt Ideal))
  (x2 x3 x4 x5 : (⟨S16x64, .f32⟩ : BufTy).Contents (Elt Ideal))

/-- The score matrices at explicit coordinates. -/
theorem v60_ix (b : Fin 4) (h : Fin 16) (d e : Fin 64) :
    val_main_v60 (F := Ideal) x0 x1 x2 x3 x4 x5 (ix4 b h d e) = scores x0 (third x1 1024 (by omega)) (third x1 2048 (by omega)) x2 x3 x4 x5 (ix4 b h d e) := by
  rw [val_main_v60_apply, val_main_v59_apply, val_main_cst_9_apply, val_main_v58_apply]
  have hs : ∀ k : Fin 4096,
      val_main_v33 (F := Ideal) x0 x1 x2 x3 (lidx_main_v58 (ix4 b h d e) k) *
        val_main_v57 (F := Ideal) x0 x1 x4 x5 (ridx_main_v58 (ix4 b h d e) k) =
      normed x0 (third x1 1024 (by omega)) x2 x3 b k h d * normed x0 (third x1 2048 (by omega)) x4 x5 b k h e := fun k => by
    rw [ix4_of_val (lidx_main_v58 (ix4 b h d e) k) b h k d rfl rfl rfl rfl,
      ix4_of_val (ridx_main_v58 (ix4 b h d e) k) b h k e rfl rfl rfl rfl, v33_ix, v57_ix]
  rw [Finset.sum_congr rfl fun k _ => hs k]
  rfl

/-- The score matrices, as whole arrays. -/
theorem v60_eq : val_main_v60 (F := Ideal) x0 x1 x2 x3 x4 x5 = scores x0 (third x1 1024 (by omega)) (third x1 2048 (by omega)) x2 x3 x4 x5 := by
  funext i
  obtain ⟨b, h, d, e, rfl⟩ : ∃ (b : Fin 4) (h : Fin 16) (d e : Fin 64), i = ix4 b h d e :=
    ⟨i 0, i 1, i 2, i 3, eq_ix4 i⟩
  exact v60_ix x0 x1 x2 x3 x4 x5 b h d e

end Cert.LinAttn.Ref

end
-- ==== Proof.RefAttn.lean ====
/-
  The reference's attended heads are the specification's.

  Per (batch b, head h) the reference multiplies the query heads (token × lane) by the score matrix (lane × lane):
  lane e of token n is the sum over the lanes d of query lane d times score entry (d, e).
-/
import proofs.«139104_j27487790695180_1_alg».proof.Proof.RefScores

noncomputable section

namespace Cert.LinAttn.Ref

open Cert.ReferenceIdeal Cert.ReferenceIdeal.Read Idealize.ShloMosaic Idealize.ShloMosaic.ValueIdx

variable (x0 : (⟨S4x4096x1024, .f32⟩ : BufTy).Contents (Elt Ideal)) (x1 : (⟨S1024x3072, .f32⟩ : BufTy).Contents (Elt Ideal))
  (x2 x3 x4 x5 : (⟨S16x64, .f32⟩ : BufTy).Contents (Elt Ideal))

/-- The attended heads at explicit coordinates. -/
theorem v61_ix (b : Fin 4) (h : Fin 16) (n : Fin 4096) (e : Fin 64) :
    val_main_v61 (F := Ideal) x0 x1 x2 x3 x4 x5 (ix4 b h n e) =
      attn x0 (third x1 0 (by omega)) (scores x0 (third x1 1024 (by omega)) (third x1 2048 (by omega)) x2 x3 x4 x5) b n h e := by
  rw [val_main_v61_apply, v60_eq]
  unfold attn
  refine Finset.sum_congr rfl fun k _ => ?_
  rw [ix4_of_val (lidx_main_v61 (ix4 b h n e) k) b h n k rfl rfl rfl rfl,
    ix4_of_val (ridx_main_v61 (ix4 b h n e) k) b h k e rfl rfl rfl rfl, v5_ix]

end Cert.LinAttn.Ref

end
-- ==== Proof.RefValue.lean ====
/-
  The reference is the specification.

  The reference moves the token axis of the attended heads back in front of the head axis and lays the 16 heads of 64
  lanes side by side as 1024 columns: column k is lane k % 64 of head k / 64. It multiplies by the output matrix (a sum
  over the 1024 columns) and adds the bias, broadcast over batch and token.
-/
import proofs.«139104_j27487790695180_1_alg».proof.Proof.RefAttn

noncomputable section

namespace Cert.LinAttn.Ref

open Cert.ReferenceIdeal Cert.ReferenceIdeal.Read Idealize.ShloMosaic Idealize.ShloMosaic.ValueIdx

/-- An index with three coordinates is determined by the coordinates' values. -/
theorem ix3_of_val {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun t => Fin.ext (by
    match t with
    | ⟨0, _⟩ => exact h0
    | ⟨1, _⟩ => exact h1
    | ⟨2, _⟩ => exact h2)

/-- An index with one coordinate is determined by the coordinate's value. -/
theorem ix1_of_val {n0 : Nat} (j : (⟨1, ![n0]⟩ : Shape).Idx) (a : Fin n0) (h0 : (j 0).val = a.val) : j = ix1 a :=
  funext fun t => Fin.ext (by
    match t with
    | ⟨0, _⟩ => exact h0)

variable (x0 : (⟨S4x4096x1024, .f32⟩ : BufTy).Contents (Elt Ideal)) (x1 : (⟨S1024x3072, .f32⟩ : BufTy).Contents (Elt Ideal))
  (x2 x3 x4 x5 : (⟨S16x64, .f32⟩ : BufTy).Contents (Elt Ideal))
  (x6 : (⟨S1024x1024, .f32⟩ : BufTy).Contents (Elt Ideal)) (x7 : (⟨S1024, .f32⟩ : BufTy).Contents (Elt Ideal))

/-- The heads side by side: column k of token (b, n) is lane k % 64 of the attended head k / 64. -/
theorem v63_ix (b : Fin 4) (n : Fin 4096) (k : Fin 1024) :
    val_main_v63 (F := Ideal) x0 x1 x2 x3 x4 x5 (ix3 b n k) =
      attn x0 (third x1 0 (by omega)) (scores x0 (third x1 1024 (by omega)) (third x1 2048 (by omega)) x2 x3 x4 x5) b n
        ⟨k.val / 64, by have := k.isLt; omega⟩ ⟨k.val % 64, by omega⟩ := by
  have hb := b.isLt; have hn := n.isLt; have hk := k.isLt
  have e : idx_main_v62 (idx_main_v63 (ix3 b n k)) = ix4 b ⟨k.val / 64, by omega⟩ n ⟨k.val % 64, by omega⟩ :=
    ix4_of_val _ _ _ _ _
      (by show ((b.val * 4096 + n.val) * 1024 + k.val) / 4194304 = b.val; omega)
      (by show ((b.val * 4096 + n.val) * 1024 + k.val) / 64 % 16 = k.val / 64; omega)
      (by show ((b.val * 4096 + n.val) * 1024 + k.val) / 1024 % 4096 = n.val; omega)
      (by show ((b.val * 4096 + n.val) * 1024 + k.val) % 64 = k.val % 64; omega)
  rw [val_main_v63_apply, val_main_v62_apply, e, v61_ix]

/-- The result at explicit coordinates. -/
theorem v67_ix (b : Fin 4) (n : Fin 4096) (c : Fin 1024) :
    val_main_v67 (F := Ideal) x0 x1 x2 x3 x4 x5 x6 x7 (ix3 b n c) =
      out x0 (third x1 0 (by omega)) (scores x0 (third x1 1024 (by omega)) (third x1 2048 (by omega)) x2 x3 x4 x5) x6 x7 (ix3 b n c) := by
  rw [val_main_v67_apply, val_main_v66_apply, val_main_v65_apply, val_main_v64_apply]
  have hs : ∀ k : Fin 1024,
      val_main_v63 (F := Ideal) x0 x1 x2 x3 x4 x5 (lidx_main_v64 (ix3 b n c) k) * x6 (ridx_main_v64 (ix3 b n c) k) =
      attn x0 (third x1 0 (by omega)) (scores x0 (third x1 1024 (by omega)) (third x1 2048 (by omega)) x2 x3 x4 x5) b n
        ⟨k.val / 64, by have := k.isLt; omega⟩ ⟨k.val % 64, by omega⟩ * x6 (ix2 k c) := fun k => by
    rw [ix3_of_val (lidx_main_v64 (ix3 b n c) k) b n k rfl rfl rfl,
      ix2_of_val (ridx_main_v64 (ix3 b n c) k) k c rfl rfl, v63_ix]
  rw [Finset.sum_congr rfl fun k _ => hs k, ix1_of_val (idx_main_v65 (idx_main_v66 (ix3 b n c))) c rfl]
  rfl

/-- The reference's result, as a function of the eight arguments, is the specification's. -/
theorem value (x0 : (⟨S4x4096x1024, .f32⟩ : BufTy).Contents (Elt Ideal)) (x1 : (⟨S1024x3072, .f32⟩ : BufTy).Contents (Elt Ideal))
    (x2 x3 x4 x5 : (⟨S16x64, .f32⟩ : BufTy).Contents (Elt Ideal)) (x6 : (⟨S1024x1024, .f32⟩ : BufTy).Contents (Elt Ideal))
    (x7 : (⟨S1024, .f32⟩ : BufTy).Contents (Elt Ideal)) :
    val_main_v67 (F := Ideal) x0 x1 x2 x3 x4 x5 x6 x7 = result x0 x1 x2 x3 x4 x5 x6 x7 := by
  funext i
  obtain ⟨b, n, c, rfl⟩ : ∃ (b : Fin 4) (n : Fin 4096) (c : Fin 1024), i = ix3 b n c := ⟨i 0, i 1, i 2, eq_ix3 i⟩
  exact v67_ix x0 x1 x2 x3 x4 x5 x6 x7 b n c

end Cert.LinAttn.Ref

end
-- ==== Proof.KernelRun.lean ====
/-
  The idealized kernel's run with its result NAMED. The program is a stretch of host operations (the three thirds of
  the joint weight, and format changes that are the identity on the extended reals) followed by two kernel regions.
  Every weakly fair execution terminates, and at the end every buffer that outlives the regions holds the contents
  of the last boundary of that chain: the arguments as launched, and the result array at what the second region's
  write-backs leave.
-/
import proofs.«139104_j27487790695180_1_alg».proof.Proof.Gen.KernelIdeal.Frame

set_option maxRecDepth 16384

noncomputable section

namespace Cert.LinAttn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents of its buffer, and the eight arguments end as
    launched. The launch over the program's three segments, the last thread state read against the final state. -/
theorem run_named : θ_run defs (onTc (τ := τ) (main (F := F))) ⟨m, fun _ => 0, ρ⟩ (fun r => ∀ c : Dev nD,
      r.2.mem ((c.tc : Thread nD τ).loc main_v8) = W3 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v8 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.LinAttn.Run

end
-- ==== Proof.TileProj.lean ====
/-
  One tile of 256 tokens projected by a 1024 × 1024 matrix and cut into heads: lane `l` of head `h` of the tile's
  token `r` is the product of the token's row with column `64 h + l` of the matrix — a sum over the 1024 features.
-/
import proofs.«139104_j27487790695180_1_alg».proof.Proof.Gen.KernelIdeal.Skeleton
import proofs.«139104_j27487790695180_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.LinAttn.Tile

open Idealize.ShloMosaic Idealize.ShloMosaic.TcCoe Idealize.ShloMosaic.ValueIdx
open Cert.KernelIdeal Cert.KernelIdeal.Gen

/-! ## The block product's operand coordinates: rows of the left operand against columns of the right -/

abbrev D2 := dot_S256x1024_S1024x1024_S256x1024_1_0_0_1_n_n

theorem D2_l0 (i : S256x1024.Idx) (q : D2.contr.Idx) : (D2.lhsIdx i q 0).val = (i 0).val := by
  unfold DotDims.lhsIdx
  rw [dif_neg (show ¬(0 : Fin S256x1024.rank) ∈ D2.lhsBatch by decide), dif_pos (show (0 : Fin S256x1024.rank) ∈ D2.lhsNonContracting by decide)]
  rfl
theorem D2_l1 (i : S256x1024.Idx) (q : D2.contr.Idx) : (D2.lhsIdx i q 1).val = (q ⟨0, by decide⟩).val :=
  D2.lhsIdx_val_of_single rfl i q
theorem D2_r0 (i : S256x1024.Idx) (q : D2.contr.Idx) : (D2.rhsIdx i q 0).val = (q ⟨0, by decide⟩).val :=
  D2.rhsIdx_val_of_single rfl i q
theorem D2_r1 (i : S256x1024.Idx) (q : D2.contr.Idx) : (D2.rhsIdx i q 1).val = (i 1).val := by
  unfold DotDims.rhsIdx
  rw [dif_neg (show ¬(1 : Fin S1024x1024.rank) ∈ D2.rhsBatch by decide), dif_pos (show (1 : Fin S1024x1024.rank) ∈ D2.rhsNonContracting by decide)]
  rfl

/-- A 256 × 1024 block against a 1024 × 1024 matrix, into a zero accumulator: entry `(r, j)` is the sum over the
    contracted feature `k` of `a (r, k) · b (k, j)`. -/
theorem block_matmul (a : FVec Ideal S256x1024 .bf16) (b : FVec Ideal S1024x1024 .bf16) (r : Fin 256) (j : Fin 1024) :
    matmul D2 none a b (constant S256x1024 .f32 0x00000000#32) (ix2 r j) = ∑ k : Fin 1024, a (ix2 r k) * b (ix2 k j) := by
  refine (Ideal.matmul_constant_zero_apply D2 none a b (ix2 r j)).trans ?_
  rw [← Equiv.sum_comp (contrEquiv1 D2 1024 rfl rfl).symm]
  refine Finset.sum_congr rfl fun k _ => ?_
  have hk := contrEquiv1_symm_val D2 1024 rfl rfl k
  have el : D2.lhsIdx (ix2 r j) ((contrEquiv1 D2 1024 rfl rfl).symm k) = ix2 r k :=
    funext fun a => Fin.ext (by
      match a with
      | ⟨0, _⟩ => exact D2_l0 _ _
      | ⟨1, _⟩ => exact (D2_l1 _ _).trans hk)
  have er : D2.rhsIdx (ix2 r j) ((contrEquiv1 D2 1024 rfl rfl).symm k) = ix2 k j :=
    funext fun a => Fin.ext (by
      match a with
      | ⟨0, _⟩ => exact (D2_r0 _ _).trans hk
      | ⟨1, _⟩ => exact D2_r1 _ _)
  rw [el, er]

/-- The tile's heads: lane `l` of head `h` of token `r` is the token's row against column `64 h + l`. -/
theorem heads_apply (x0 : FVec Ideal S1x256x1024 .f32) (wm : FVec Ideal S1024x1024 .bf16) (r : Fin 256) (h : Fin 16) (l : Fin 64) :
    k0_pay4 x0 wm (ix3 r h l) = ∑ k : Fin 1024, x0 (ix3 (0 : Fin 1) r k) * wm (ix2 k (Cert.LinAttn.hcol h l)) := by
  unfold k0_pay4 k0_pay3
  refine (shapeCast_apply _ _ (ix3 r h l) (ix2 r (Cert.LinAttn.hcol h l)) ?_).trans ?_
  · rw [Shape.rowMajor_val_two, Shape.rowMajor_val_three]
    show r.val * 1024 + (64 * h.val + l.val) = (r.val * 16 + h.val) * 64 + l.val
    omega
  refine (block_matmul _ _ r (Cert.LinAttn.hcol h l)).trans ?_
  refine Finset.sum_congr rfl fun k _ => ?_
  rw [shapeCast_self]
  exact congrArg (· * _) (shapeCast_1ab_ab_apply x0 _ r k)

end Cert.LinAttn.Tile

end
-- ==== Proof.TileNorm.lean ====
/-
  The per-head normalisation of one tile, lane by lane. For a tile's heads `t` (token × head × lane): the mean over a
  head's 64 lanes, the centred lanes, the mean of their squares plus the epsilon, its reciprocal square root, then the
  head's scale and shift. Read at token `r`, head `h`, lane `l` it is the specification's `lnorm` of that head's lanes.
-/
import proofs.«139104_j27487790695180_1_alg».proof.Proof.TileProj

set_option maxRecDepth 16384

noncomputable section

namespace Cert.LinAttn.Tile

open Idealize.ShloMosaic Idealize.ShloMosaic.TcCoe Idealize.ShloMosaic.ValueIdx
open Cert.KernelIdeal Cert.KernelIdeal.Gen

/-- The mean over a head's lanes, kept as a column of width one. -/
def meanCol (t : FVec Ideal S256x16x64 .f32) : FVec Ideal S256x16x1 .f32 :=
  divf (shapeCast S256x16x1 (multiReduction .add [2] S256x16 t 0x00000000#32 reduces_S256x16x64_S256x16 (.inl rfl) rfl) shapeCasts_S256x16_S256x16x1)
    (broadcast S256x16x1 (Scalar.ofBits (F := Ideal) .f32 0x42800000#32))

/-- A column of width one repeated over the 64 lanes. -/
abbrev lanes (v : FVec Ideal S256x16x1 .f32) : FVec Ideal S256x16x64 .f32 :=
  broadcastTo S256x16x64 v broadcasts_S256x16x1_S256x16x64

/-- The lanes minus their head's mean. -/
def centred (t : FVec Ideal S256x16x64 .f32) : FVec Ideal S256x16x64 .f32 := subf t (lanes (meanCol t))

/-- The centred lanes times the reciprocal square root of their mean square plus the epsilon. -/
def unit (t : FVec Ideal S256x16x64 .f32) : FVec Ideal S256x16x64 .f32 :=
  mulf (centred t) (lanes (rsqrt (addf (meanCol (mulf (centred t) (centred t)))
    (broadcast S256x16x1 (Scalar.ofBits (F := Ideal) .f32 0x3727C5AC#32)))))

/-- A head × lane table repeated over the tile's tokens. -/
abbrev perToken (g : Vec Ideal S16x64 .f32) : FVec Ideal S256x16x64 .f32 :=
  broadcastTo S256x16x64 (shapeCast S1x16x64 g shapeCasts_S16x64_S1x16x64) broadcasts_S1x16x64_S256x16x64

/-- The body's scaled heads are `unit` of the projected heads times the scale. -/
theorem scaled_eq (x0 : Vec Ideal S1x256x1024 .f32) (x1 : Vec Ideal S1024x1024 .bf16) (x3 : Vec Ideal S16x64 .f32) :
    k0_pay5 x0 x1 x3 = mulf (unit (k0_pay4 x0 x1)) (perToken x3) := rfl

/-- A sum over the lanes of a head: the lane reduction at token `r`, head `h`. -/
theorem laneSum_apply (t : FVec Ideal S256x16x64 .f32) (r : Fin 256) (h : Fin 16) :
    multiReduction .add [2] S256x16 t 0x00000000#32 reduces_S256x16x64_S256x16 (.inl rfl) rfl (ix2 r h)
      = ∑ l : Fin 64, t (ix3 r h l) := by
  refine (Ideal.multiReduction_add_single t 0x00000000#32 reduces_S256x16x64_S256x16 (.inl rfl) rfl (ix2 r h)).trans ?_
  refine Finset.sum_congr rfl fun l _ => congrArg t (funext fun a => Fin.ext ?_)
  match a with
  | ⟨0, _⟩ => rfl
  | ⟨1, _⟩ => rfl
  | ⟨2, _⟩ => rfl

/-- The column of means at token `r`, head `h` is the mean of that head's lanes. -/
theorem meanCol_apply (t : FVec Ideal S256x16x64 .f32) (r : Fin 256) (h : Fin 16) (u : Fin 1) :
    meanCol t (ix3 r h u) = Cert.LinAttn.mean (fun l => t (ix3 r h l)) := by
  unfold meanCol Cert.LinAttn.mean Cert.LinAttn.c64
  rw [divf_apply, broadcast_apply]
  refine congrArg (Ideal.div · _) ?_
  refine (shapeCast_apply _ _ (ix3 r h u) (ix2 r h) ?_).trans (laneSum_apply t r h)
  rw [Shape.rowMajor_val_two, Shape.rowMajor_val_three]
  have hu : u.val = 0 := by omega
  show r.val * 16 + h.val = (r.val * 16 + h.val) * 1 + u.val
  omega

/-- A width-one column repeated over the lanes, read at a lane, is the column's entry. -/
theorem lanes_apply (v : FVec Ideal S256x16x1 .f32) (r : Fin 256) (h : Fin 16) (l : Fin 64) :
    lanes v (ix3 r h l) = v (ix3 r h (0 : Fin 1)) := by
  refine broadcastTo_apply v _ (ix3 r h l) (ix3 r h (0 : Fin 1)) fun a => ?_
  match a with
  | ⟨0, _⟩ => rfl
  | ⟨1, _⟩ => rfl
  | ⟨2, _⟩ => rfl

/-- A head × lane table repeated over the tokens, read at a token, is the table's entry. -/
theorem perToken_apply (g : Vec Ideal S16x64 .f32) (r : Fin 256) (h : Fin 16) (l : Fin 64) :
    perToken g (ix3 r h l) = g (ix2 h l) := by
  refine (broadcastTo_apply _ _ (ix3 r h l) (ix3 (0 : Fin 1) h l) fun a => ?_).trans (shapeCast_ab_1ab_apply g _ 0 h l)
  match a with
  | ⟨0, _⟩ => rfl
  | ⟨1, _⟩ => rfl
  | ⟨2, _⟩ => rfl

/-- The reciprocal square root is taken entry by entry. -/
theorem rsqrt_at {s : Shape} (v : FVec Ideal s .f32) (i : s.Idx) : rsqrt v i = Ideal.rsqrt (v i) := rfl

theorem centred_apply (t : FVec Ideal S256x16x64 .f32) (r : Fin 256) (h : Fin 16) (l : Fin 64) :
    centred t (ix3 r h l) = t (ix3 r h l) - Cert.LinAttn.mean (fun e => t (ix3 r h e)) := by
  unfold centred
  rw [subf_apply, lanes_apply, meanCol_apply]

/-- The normalised, scaled and shifted heads of a tile, read at token `r`, head `h`, lane `l`. -/
theorem normed_apply (t : FVec Ideal S256x16x64 .f32) (g be : Vec Ideal S16x64 .f32) (r : Fin 256) (h : Fin 16) (l : Fin 64) :
    addf (mulf (unit t) (perToken g)) (perToken be) (ix3 r h l)
      = Cert.LinAttn.lnorm (fun e => t (ix3 r h e)) (fun e => g (ix2 h e)) (fun e => be (ix2 h e)) l := by
  unfold Cert.LinAttn.lnorm Cert.LinAttn.eps
  rw [addf_apply, mulf_apply, perToken_apply, perToken_apply]
  unfold unit
  rw [mulf_apply, lanes_apply, centred_apply]
  have inner : rsqrt (addf (meanCol (mulf (centred t) (centred t)))
        (broadcast S256x16x1 (Scalar.ofBits (F := Ideal) .f32 0x3727C5AC#32))) (ix3 r h (0 : Fin 1))
      = Ideal.rsqrt (Cert.LinAttn.mean (fun e => (t (ix3 r h e) - Cert.LinAttn.mean fun e => t (ix3 r h e))
          * (t (ix3 r h e) - Cert.LinAttn.mean fun e => t (ix3 r h e))) + Ideal.ofBits .f32 0x3727C5AC#32) := by
    rw [rsqrt_at, addf_apply, broadcast_apply, meanCol_apply]
    refine congrArg (fun z => Ideal.rsqrt (Cert.LinAttn.mean z + _)) (funext fun e => ?_)
    rw [mulf_apply, centred_apply]
  rw [inner]

end Cert.LinAttn.Tile

end
-- ==== Proof.ScoreCases.lean ====
/-
  What one grid point of the first region leaves in the score block's buffer, case by case, as pure terms of the
  blocks it reads. A point sees one tile of 256 tokens of one batch. With `tile … acc` the body's accumulation —
  the tile's normalised key heads against its normalised value heads, summed over the tile's tokens and added to
  `acc` —: the first tile of a batch leaves `tile … 0` (it stores the zero block and reads it back), a middle
  tile leaves `tile … (what the tile before left)`, and the last tile leaves that, scaled.
-/
import proofs.«139104_j27487790695180_1_alg».proof.Proof.Gen.KernelIdeal.Frame
import Idealize.ShloMosaic.Lib.Pipeline.Value

set_option maxRecDepth 16384

noncomputable section

namespace Cert.LinAttn.Cases

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The accumulation of one tile: from the token block `x0`, the key and value matrices `x1`, `x2`, the key scale
    and shift `x3`, `x4`, the value scale and shift `x5`, `x6`, onto the block `acc`. -/
abbrev tile (x0 : Vec F S1x256x1024 .f32) (x1 : Vec F S1024x1024 .bf16) (x2 : Vec F S1024x1024 .bf16) (x3 x4 x5 x6 : Vec F S16x64 .f32) (acc : Vec F S1x16x64x64 .f32) : Vec F S1x16x64x64 .f32 :=
  k0_pay6 (k0_pay4 x0 x2) x4 (k0_pay5 x0 x1 x3) x5 x6 acc

/-- A middle tile: the block the tile before left, plus this tile's accumulation. -/
theorem middle (c : Dev nD) (i : grid0.Coords)
    (a2 : Memref sig .tc .vmem S1x256x1024 .f32) (h2 : a2.IsWhole) (a3 : Memref sig .tc .vmem S1024x1024 .bf16) (h3 : a3.IsWhole)
    (a4 : Memref sig .tc .vmem S1024x1024 .bf16) (h4 : a4.IsWhole) (a5 : Memref sig .tc .vmem S16x64 .f32) (h5 : a5.IsWhole)
    (a6 : Memref sig .tc .vmem S16x64 .f32) (h6 : a6.IsWhole) (a7 : Memref sig .tc .vmem S16x64 .f32) (h7 : a7.IsWhole)
    (a8 : Memref sig .tc .vmem S16x64 .f32) (h8 : a8.IsWhole) (a9 : Memref sig .tc .vmem S1x16x64x64 .f32) (h9 : a9.IsWhole)
    (hc0 : ¬cond0_0 i) (hc1 : ¬cond0_1 i) (x0 : Vec F S1x256x1024 .f32) (x1 : Vec F S1024x1024 .bf16) (x2 : Vec F S1024x1024 .bf16) (x3 x4 x5 x6 : Vec F S16x64 .f32) (xo : Vec F S1x16x64x64 .f32) :
    out0_B_7 c i a2 h2 a3 h3 a4 h4 a5 h5 a6 h6 a7 h7 a8 h8 a9 h9 hc0 hc1 x0 x1 x2 x3 x4 x5 x6 xo = tile x0 x1 x2 x3 x4 x5 x6 xo := by
  unfold out0_B_7
  rw [View.read_writes_eq_canon _ _ _ (cover0_B_7 c i a2 h2 a3 h3 a4 h4 a5 h5 a6 h6 a7 h7 a8 h8 a9 h9 hc0 hc1 x0 x1 x2 x3 x4 x5 x6 xo)]
  unfold kernelRun0_B
  dsimp only
  sl_unfold_words
  rw [View.canon_unit_zero hz4]
  simp only [View.readAt_eq_ld, h2.read_unread, h3.read_unread, h4.read_unread, h5.read_unread, h6.read_unread, h7.read_unread, h8.read_unread, h9.read_unread,
    View.ld_unit_zero (S := S1x256x1024) hz3, View.ld_unit_zero (S := S1024x1024) hz2, View.ld_unit_zero (S := S16x64) hz2, View.ld_unit_zero (S := S1x16x64x64) hz4]

/-- The first tile of a batch: the zero block, stored and read back, plus this tile's accumulation. -/
theorem first (c : Dev nD) (i : grid0.Coords)
    (a2 : Memref sig .tc .vmem S1x256x1024 .f32) (h2 : a2.IsWhole) (a3 : Memref sig .tc .vmem S1024x1024 .bf16) (h3 : a3.IsWhole)
    (a4 : Memref sig .tc .vmem S1024x1024 .bf16) (h4 : a4.IsWhole) (a5 : Memref sig .tc .vmem S16x64 .f32) (h5 : a5.IsWhole)
    (a6 : Memref sig .tc .vmem S16x64 .f32) (h6 : a6.IsWhole) (a7 : Memref sig .tc .vmem S16x64 .f32) (h7 : a7.IsWhole)
    (a8 : Memref sig .tc .vmem S16x64 .f32) (h8 : a8.IsWhole) (a9 : Memref sig .tc .vmem S1x16x64x64 .f32) (h9 : a9.IsWhole)
    (hc0 : cond0_0 i) (hc1 : ¬cond0_1 i) (x0 : Vec F S1x256x1024 .f32) (x1 : Vec F S1024x1024 .bf16) (x2 : Vec F S1024x1024 .bf16) (x3 x4 x5 x6 : Vec F S16x64 .f32) :
    out0_A_7 c i a2 h2 a3 h3 a4 h4 a5 h5 a6 h6 a7 h7 a8 h8 a9 h9 hc0 hc1 x0 x1 x2 x3 x4 x5 x6 = tile x0 x1 x2 x3 x4 x5 x6 (k0_pay2 (F := F)) := by
  unfold out0_A_7
  rw [View.read_writes_eq_canon _ _ _ (cover0_A_7 c i a2 h2 a3 h3 a4 h4 a5 h5 a6 h6 a7 h7 a8 h8 a9 h9 hc0 hc1 x0 x1 x2 x3 x4 x5 x6)]
  unfold kernelRun0_A
  dsimp only
  sl_unfold_words
  rw [View.canon_cons_unit_zero (S := S1x16x64x64) hz4, View.readCov_unit_zero (S := S1x16x64x64) _ hz4]
  simp only [View.readAt_eq_ld, h2.read_unread, h3.read_unread, h4.read_unread, h5.read_unread, h6.read_unread, h7.read_unread, h8.read_unread, h9.read_unread,
    View.ld_unit_zero (S := S1x256x1024) hz3, View.ld_unit_zero (S := S1024x1024) hz2, View.ld_unit_zero (S := S16x64) hz2, View.ld_unit_zero (S := S1x16x64x64) hz4]

/-- The last tile of a batch: the accumulation onto what the tile before left, then the closing scale. -/
theorem last (c : Dev nD) (i : grid0.Coords)
    (a2 : Memref sig .tc .vmem S1x256x1024 .f32) (h2 : a2.IsWhole) (a3 : Memref sig .tc .vmem S1024x1024 .bf16) (h3 : a3.IsWhole)
    (a4 : Memref sig .tc .vmem S1024x1024 .bf16) (h4 : a4.IsWhole) (a5 : Memref sig .tc .vmem S16x64 .f32) (h5 : a5.IsWhole)
    (a6 : Memref sig .tc .vmem S16x64 .f32) (h6 : a6.IsWhole) (a7 : Memref sig .tc .vmem S16x64 .f32) (h7 : a7.IsWhole)
    (a8 : Memref sig .tc .vmem S16x64 .f32) (h8 : a8.IsWhole) (a9 : Memref sig .tc .vmem S1x16x64x64 .f32) (h9 : a9.IsWhole)
    (hc0 : ¬cond0_0 i) (hc1 : cond0_1 i) (x0 : Vec F S1x256x1024 .f32) (x1 : Vec F S1024x1024 .bf16) (x2 : Vec F S1024x1024 .bf16) (x3 x4 x5 x6 : Vec F S16x64 .f32) (xo : Vec F S1x16x64x64 .f32) :
    out0_C_7 c i a2 h2 a3 h3 a4 h4 a5 h5 a6 h6 a7 h7 a8 h8 a9 h9 hc0 hc1 x0 x1 x2 x3 x4 x5 x6 xo = k0_pay1 (tile x0 x1 x2 x3 x4 x5 x6 xo) := by
  unfold out0_C_7
  rw [View.read_writes_eq_canon _ _ _ (cover0_C_7 c i a2 h2 a3 h3 a4 h4 a5 h5 a6 h6 a7 h7 a8 h8 a9 h9 hc0 hc1 x0 x1 x2 x3 x4 x5 x6 xo)]
  unfold kernelRun0_C
  dsimp only
  sl_unfold_words
  rw [View.canon_cons_unit_zero (S := S1x16x64x64) hz4, View.readCov_unit_zero (S := S1x16x64x64) _ hz4]
  simp only [View.readAt_eq_ld, h2.read_unread, h3.read_unread, h4.read_unread, h5.read_unread, h6.read_unread, h7.read_unread, h8.read_unread, h9.read_unread,
    View.ld_unit_zero (S := S1x256x1024) hz3, View.ld_unit_zero (S := S1024x1024) hz2, View.ld_unit_zero (S := S16x64) hz2, View.ld_unit_zero (S := S1x16x64x64) hz4]

end Cert.LinAttn.Cases

end
-- ==== Proof.TileAcc.lean ====
/-
  What one tile adds to a batch's score block. The tile's normalised key heads and value heads are regrouped head by
  head; for head `h` the 64 × 64 matrix of key lane `d` against value lane `e` is the sum over the tile's 256 tokens
  of key × value, and it is added to the block as it stood. Read at `(h, d, e)`: the old entry plus that sum, every
  factor the specification's `lnorm` of a projected head.
-/
import proofs.«139104_j27487790695180_1_alg».proof.Proof.TileNorm
import proofs.«139104_j27487790695180_1_alg».proof.Proof.ScoreCases

set_option maxRecDepth 16384

noncomputable section

namespace Cert.LinAttn.Tile

open Idealize.ShloMosaic Idealize.ShloMosaic.TcCoe Idealize.ShloMosaic.ValueIdx
open Cert.KernelIdeal Cert.KernelIdeal.Gen

/-! ## The per-head product's operand coordinates: the head is shared, the tile's token is summed over -/

abbrev D3 := dot_S16x256x64_S16x256x64_S16x64x64_1_1_2_2_0_0

theorem D3_l0 (i : S16x64x64.Idx) (q : D3.contr.Idx) : (D3.lhsIdx i q 0).val = (i 0).val := by
  unfold DotDims.lhsIdx
  rw [dif_pos (show (0 : Fin S16x256x64.rank) ∈ D3.lhsBatch by decide)]
  rfl
theorem D3_l1 (i : S16x64x64.Idx) (q : D3.contr.Idx) : (D3.lhsIdx i q 1).val = (q ⟨0, by decide⟩).val :=
  D3.lhsIdx_val_of_single rfl i q
theorem D3_l2 (i : S16x64x64.Idx) (q : D3.contr.Idx) : (D3.lhsIdx i q 2).val = (i 1).val := by
  unfold DotDims.lhsIdx
  rw [dif_neg (show ¬(2 : Fin S16x256x64.rank) ∈ D3.lhsBatch by decide), dif_pos (show (2 : Fin S16x256x64.rank) ∈ D3.lhsNonContracting by decide)]
  rfl
theorem D3_r0 (i : S16x64x64.Idx) (q : D3.contr.Idx) : (D3.rhsIdx i q 0).val = (i 0).val := by
  unfold DotDims.rhsIdx
  rw [dif_pos (show (0 : Fin S16x256x64.rank) ∈ D3.rhsBatch by decide)]
  rfl
theorem D3_r1 (i : S16x64x64.Idx) (q : D3.contr.Idx) : (D3.rhsIdx i q 1).val = (q ⟨0, by decide⟩).val :=
  D3.rhsIdx_val_of_single rfl i q
theorem D3_r2 (i : S16x64x64.Idx) (q : D3.contr.Idx) : (D3.rhsIdx i q 2).val = (i 2).val := by
  unfold DotDims.rhsIdx
  rw [dif_neg (show ¬(2 : Fin S16x256x64.rank) ∈ D3.rhsBatch by decide), dif_pos (show (2 : Fin S16x256x64.rank) ∈ D3.rhsNonContracting by decide)]
  rfl

/-- Head by head, key lanes against value lanes over the tile's tokens, into a zero accumulator. -/
theorem head_matmul (a b : FVec Ideal S16x256x64 .bf16) (h : Fin 16) (d e : Fin 64) :
    matmul D3 none a b (constant S16x64x64 .f32 0x00000000#32) (ix3 h d e) = ∑ r : Fin 256, a (ix3 h r d) * b (ix3 h r e) := by
  refine (Ideal.matmul_constant_zero_apply D3 none a b (ix3 h d e)).trans ?_
  rw [← Equiv.sum_comp (contrEquiv1 D3 256 rfl rfl).symm]
  refine Finset.sum_congr rfl fun r _ => ?_
  have hr := contrEquiv1_symm_val D3 256 rfl rfl r
  have el : D3.lhsIdx (ix3 h d e) ((contrEquiv1 D3 256 rfl rfl).symm r) = ix3 h r d :=
    funext fun a => Fin.ext (by
      match a with
      | ⟨0, _⟩ => exact D3_l0 _ _
      | ⟨1, _⟩ => exact (D3_l1 _ _).trans hr
      | ⟨2, _⟩ => exact D3_l2 _ _)
  have er : D3.rhsIdx (ix3 h d e) ((contrEquiv1 D3 256 rfl rfl).symm r) = ix3 h r e :=
    funext fun a => Fin.ext (by
      match a with
      | ⟨0, _⟩ => exact D3_r0 _ _
      | ⟨1, _⟩ => exact (D3_r1 _ _).trans hr
      | ⟨2, _⟩ => exact D3_r2 _ _)
  rw [el, er]

/-- Token × head × lane regrouped as head × token × lane. -/
theorem byHead_apply (t : FVec Ideal S256x16x64 .f32) (h : Fin 16) (r : Fin 256) (l : Fin 64) :
    transpose S16x256x64 [1, 0, 2] t transposes_S256x16x64_p1_0_2_S16x256x64 (ix3 h r l) = t (ix3 r h l) := by
  refine transpose_apply [1, 0, 2] t _ (ix3 h r l) (ix3 r h l) fun b => ?_
  match b with
  | ⟨0, _⟩ => rfl
  | ⟨1, _⟩ => rfl
  | ⟨2, _⟩ => rfl

/-- One token of a tile projected on a head's lane: the token's row against the matrix's column `64 h + l`. -/
def tileHead (x0 : Vec Ideal S1x256x1024 .f32) (wm : Vec Ideal S1024x1024 .bf16) (r : Fin 256) (h : Fin 16) (l : Fin 64) : EReal :=
  ∑ k : Fin 1024, x0 (ix3 (0 : Fin 1) r k) * wm (ix2 k (Cert.LinAttn.hcol h l))

/-- A tile's normalised head lane, from the tile's blocks. -/
def tileNormed (x0 : Vec Ideal S1x256x1024 .f32) (wm : Vec Ideal S1024x1024 .bf16) (g be : Vec Ideal S16x64 .f32)
    (r : Fin 256) (h : Fin 16) (d : Fin 64) : EReal :=
  Cert.LinAttn.lnorm (fun l => tileHead x0 wm r h l) (fun l => g (ix2 h l)) (fun l => be (ix2 h l)) d

/-- The body's accumulation, as its operations on the projected heads. -/
theorem tile_eq (x0 : Vec Ideal S1x256x1024 .f32) (x1 x2 : Vec Ideal S1024x1024 .bf16) (x3 x4 x5 x6 : Vec Ideal S16x64 .f32)
    (acc : Vec Ideal S1x16x64x64 .f32) :
    Cert.LinAttn.Cases.tile x0 x1 x2 x3 x4 x5 x6 acc
      = shapeCast S1x16x64x64 (addf (shapeCast S16x64x64 acc shapeCasts_S1x16x64x64_S16x64x64)
          (matmul D3 none
            (truncf .bf16 (transpose S16x256x64 [1, 0, 2] (addf (mulf (unit (k0_pay4 x0 x1)) (perToken x3)) (perToken x4))
              transposes_S256x16x64_p1_0_2_S16x256x64) bitsLt_bf16_f32)
            (truncf .bf16 (transpose S16x256x64 [1, 0, 2] (addf (mulf (unit (k0_pay4 x0 x2)) (perToken x5)) (perToken x6))
              transposes_S256x16x64_p1_0_2_S16x256x64) bitsLt_bf16_f32)
            (constant S16x64x64 .f32 0x00000000#32))) shapeCasts_S16x64x64_S1x16x64x64 := rfl

/-- The accumulation read at head `h`, key lane `d`, value lane `e`. -/
theorem tile_apply (x0 : Vec Ideal S1x256x1024 .f32) (x1 x2 : Vec Ideal S1024x1024 .bf16) (x3 x4 x5 x6 : Vec Ideal S16x64 .f32)
    (acc : Vec Ideal S1x16x64x64 .f32) (u : Fin 1) (h : Fin 16) (d e : Fin 64) :
    Cert.LinAttn.Cases.tile x0 x1 x2 x3 x4 x5 x6 acc (ix4 u h d e)
      = acc (ix4 (0 : Fin 1) h d e) + ∑ r : Fin 256, tileNormed x0 x1 x3 x4 r h d * tileNormed x0 x2 x5 x6 r h e := by
  rw [tile_eq, shapeCast_abc_1abc_apply, addf_apply, shapeCast_1abc_abc_apply, head_matmul]
  refine congrArg (_ + ·) (Finset.sum_congr rfl fun r _ => ?_)
  rw [truncf_apply, truncf_apply, byHead_apply, byHead_apply, normed_apply, normed_apply]
  unfold tileNormed tileHead
  simp only [heads_apply]

end Cert.LinAttn.Tile

end
-- ==== Proof.ScoreLaw.lean ====
/-
  The closing law. The kernel accumulates a head's score matrix tile by tile — 16 tiles of 256 tokens — and at the
  last tile multiplies by the float 2⁻¹²; the reference sums over all 4096 tokens and divides by the float 4096.
  Token `256 i + r` is token `r` of tile `i`, so the two sums are one sum regrouped (addition of extended reals is
  commutative and associative: no finiteness is needed), and dividing by 4096 is multiplying by its reciprocal on
  every extended real.
-/
import proofs.«139104_j27487790695180_1_alg».proof.Proof.Spec
import Idealize.ShloMosaic.PureOps.Ideal.Laws

noncomputable section

namespace Cert.LinAttn

open Idealize.ShloMosaic

/-- The float `4096.0` denotes the real 4096. -/
theorem c4096_eq : c4096 = ((4096 : ℝ) : EReal) := by
  unfold c4096
  simp [Ideal.ofBits, Ideal.ieee, -EReal.coe_mul]; norm_num

/-- The float the kernel scales by, `2⁻¹²`, denotes the real 1/4096. -/
theorem scale_eq : Ideal.ofBits .f32 0x39800000#32 = ((1 / 4096 : ℝ) : EReal) := by
  simp [Ideal.ofBits, Ideal.ieee, -EReal.coe_mul]; norm_num

/-- The float `+0.0` denotes zero. -/
theorem zero_eq : Ideal.ofBits .f32 0x00000000#32 = 0 := Ideal.ofBits_zero_f32

/-- Token `r` of tile `i`. -/
def tok (i : Fin 16) (r : Fin 256) : Fin 4096 := ⟨256 * i.val + r.val, by omega⟩

/-- A sum over the 4096 tokens, regrouped as 16 tiles of 256. -/
theorem sum_tiles (f : Fin 4096 → EReal) : ∑ n : Fin 4096, f n = ∑ i : Fin 16, ∑ r : Fin 256, f (tok i r) := by
  rw [← Fintype.sum_prod_type' (f := fun (i : Fin 16) (r : Fin 256) => f (tok i r))]
  refine (Fintype.sum_equiv (finProdFinEquiv (m := 16) (n := 256)) _ _ fun p => ?_).symm
  refine congrArg f (Fin.ext ?_)
  show 256 * p.1.val + p.2.val = p.2.val + 256 * p.1.val
  omega

/-- Scaling the tiled sum by `2⁻¹²` is dividing the whole sum by `4096`. -/
theorem scaled_tiles (f : Fin 4096 → EReal) :
    (∑ i : Fin 16, ∑ r : Fin 256, f (tok i r)) * Ideal.ofBits .f32 0x39800000#32 = Ideal.div (∑ n : Fin 4096, f n) c4096 := by
  rw [← sum_tiles, c4096_eq, Ideal.div_coe (by norm_num : (4096 : ℝ) ≠ 0), scale_eq]

end Cert.LinAttn

end
-- ==== Proof.ScoreAcc.lean ====
/-
  The score block of a batch, point by point. The first region visits, for each batch `b`, its 16 token tiles in order
  (point `16 b + j` is tile `j` of batch `b`) and keeps the batch's score block in place between them. After tile `j`
  the block holds the sum over tiles `0 … j` of key lane × value lane over each tile's 256 tokens — by induction on
  the point, never by enumerating the grid — and after the last tile that sum over all 16 tiles, scaled by 2⁻¹², which
  is the specification's score matrix (the sum over all 4096 tokens divided by 4096).
-/
import proofs.«139104_j27487790695180_1_alg».proof.Proof.TileAcc
import proofs.«139104_j27487790695180_1_alg».proof.Proof.ScoreLaw

set_option maxRecDepth 16384

noncomputable section

namespace Cert.LinAttn.Scores

open Idealize.ShloMosaic Idealize.ShloMosaic.TcCoe Idealize.ShloMosaic.ValueIdx Idealize.SL.Sem
open Cert.KernelIdeal Cert.KernelIdeal.Gen Cert.LinAttn.Tile

variable (V : (c : Dev nD) → (b : Ref sig .tc) → Buf (Elt Ideal) ((c : Thread nD τ).loc b))

/-! ## Where each window's block sits: the token window moves with the point, the other inputs are whole arrays,
    the score window moves with the batch -/

theorem idx0 : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 4) = t.val / 16 ∧ win0_7.index t (1 : Fin 4) = 0 ∧ win0_7.index t (2 : Fin 4) = 0
    ∧ win0_7.index t (3 : Fin 4) = 0 :=
  (by decide +kernel : ∀ t : Fin grid0.N, _)

/-- The token block of point `t`, tile `j` of batch `b`: its token `r` is token `256 j + r` of the batch. -/
theorem tokens_block (c : Dev nD) (t : Fin cfg0.N) (b : Fin 4) (j : Fin 16) (hb : t.val / 16 = b.val) (hj : t.val % 16 = j.val)
    (u : Fin 1) (r : Fin 256) (k : Fin 1024) :
    (iblk0 V c 0 t : Vec Ideal S1x256x1024 .f32) (ix3 u r k) = V c main_arg0 (ix3 b (tok j r) k) := by
  have e := idx0 t
  have hu : u.val = 0 := by omega
  show V c main_arg0 (((cfg0.win 0).blk t).view.emb (ix3 u r k)) = _
  refine congrArg (V c main_arg0) (funext fun a => Fin.ext ?_)
  match a with
  | ⟨0, _⟩ => show win0_0.index t (0 : Fin 3) * 1 + 1 * u.val = b.val; omega
  | ⟨1, _⟩ => show win0_0.index t (1 : Fin 3) * 256 + 1 * r.val = 256 * j.val + r.val; omega
  | ⟨2, _⟩ => show win0_0.index t (2 : Fin 3) * 1024 + 1 * k.val = k.val; omega

/-- The key matrix's block is the whole matrix. -/
theorem key_matrix_block (c : Dev nD) (t : Fin cfg0.N) (p : Fin 1024) (q : Fin 1024) :
    (iblk0 V c 1 t : Vec Ideal S1024x1024 .bf16) (ix2 p q) = V c main_v4 (ix2 p q) := by
  have e := idx0 t
  show V c main_v4 (((cfg0.win 1).blk t).view.emb (ix2 p q)) = _
  refine congrArg (V c main_v4) (funext fun a => Fin.ext ?_)
  match a with
  | ⟨0, _⟩ => show win0_1.index t (0 : Fin 2) * 1024 + 1 * p.val = p.val; omega
  | ⟨1, _⟩ => show win0_1.index t (1 : Fin 2) * 1024 + 1 * q.val = q.val; omega

/-- The value matrix's block is the whole matrix. -/
theorem value_matrix_block (c : Dev nD) (t : Fin cfg0.N) (p : Fin 1024) (q : Fin 1024) :
    (iblk0 V c 2 t : Vec Ideal S1024x1024 .bf16) (ix2 p q) = V c main_v5 (ix2 p q) := by
  have e := idx0 t
  show V c main_v5 (((cfg0.win 2).blk t).view.emb (ix2 p q)) = _
  refine congrArg (V c main_v5) (funext fun a => Fin.ext ?_)
  match a with
  | ⟨0, _⟩ => show win0_2.index t (0 : Fin 2) * 1024 + 1 * p.val = p.val; omega
  | ⟨1, _⟩ => show win0_2.index t (1 : Fin 2) * 1024 + 1 * q.val = q.val; omega

/-- The key scale's block is the whole table. -/
theorem key_scale_block (c : Dev nD) (t : Fin cfg0.N) (p : Fin 16) (q : Fin 64) :
    (iblk0 V c 3 t : Vec Ideal S16x64 .f32) (ix2 p q) = V c main_arg2 (ix2 p q) := by
  have e := idx0 t
  show V c main_arg2 (((cfg0.win 3).blk t).view.emb (ix2 p q)) = _
  refine congrArg (V c main_arg2) (funext fun a => Fin.ext ?_)
  match a with
  | ⟨0, _⟩ => show win0_3.index t (0 : Fin 2) * 16 + 1 * p.val = p.val; omega
  | ⟨1, _⟩ => show win0_3.index t (1 : Fin 2) * 64 + 1 * q.val = q.val; omega

/-- The key shift's block is the whole table. -/
theorem key_shift_block (c : Dev nD) (t : Fin cfg0.N) (p : Fin 16) (q : Fin 64) :
    (iblk0 V c 4 t : Vec Ideal S16x64 .f32) (ix2 p q) = V c main_arg3 (ix2 p q) := by
  have e := idx0 t
  show V c main_arg3 (((cfg0.win 4).blk t).view.emb (ix2 p q)) = _
  refine congrArg (V c main_arg3) (funext fun a => Fin.ext ?_)
  match a with
  | ⟨0, _⟩ => show win0_4.index t (0 : Fin 2) * 16 + 1 * p.val = p.val; omega
  | ⟨1, _⟩ => show win0_4.index t (1 : Fin 2) * 64 + 1 * q.val = q.val; omega

/-- The value scale's block is the whole table. -/
theorem value_scale_block (c : Dev nD) (t : Fin cfg0.N) (p : Fin 16) (q : Fin 64) :
    (iblk0 V c 5 t : Vec Ideal S16x64 .f32) (ix2 p q) = V c main_arg4 (ix2 p q) := by
  have e := idx0 t
  show V c main_arg4 (((cfg0.win 5).blk t).view.emb (ix2 p q)) = _
  refine congrArg (V c main_arg4) (funext fun a => Fin.ext ?_)
  match a with
  | ⟨0, _⟩ => show win0_5.index t (0 : Fin 2) * 16 + 1 * p.val = p.val; omega
  | ⟨1, _⟩ => show win0_5.index t (1 : Fin 2) * 64 + 1 * q.val = q.val; omega

/-- The value shift's block is the whole table. -/
theorem value_shift_block (c : Dev nD) (t : Fin cfg0.N) (p : Fin 16) (q : Fin 64) :
    (iblk0 V c 6 t : Vec Ideal S16x64 .f32) (ix2 p q) = V c main_arg5 (ix2 p q) := by
  have e := idx0 t
  show V c main_arg5 (((cfg0.win 6).blk t).view.emb (ix2 p q)) = _
  refine congrArg (V c main_arg5) (funext fun a => Fin.ext ?_)
  match a with
  | ⟨0, _⟩ => show win0_6.index t (0 : Fin 2) * 16 + 1 * p.val = p.val; omega
  | ⟨1, _⟩ => show win0_6.index t (1 : Fin 2) * 64 + 1 * q.val = q.val; omega

/-! ## One token's contribution, and the sums over tiles -/

/-- Key lane `d` × value lane `e` of head `h` for token `n` of batch `b`, from the arrays as the region finds them. -/
def term (c : Dev nD) (b : Fin 4) (n : Fin 4096) (h : Fin 16) (d e : Fin 64) : EReal :=
  normed (V c main_arg0) (V c main_v4) (V c main_arg2) (V c main_arg3) b n h d
    * normed (V c main_arg0) (V c main_v5) (V c main_arg4) (V c main_arg5) b n h e

/-- The contributions of tiles `0 … j` of batch `b`. -/
def upTo (c : Dev nD) (b : Fin 4) (j : ℕ) (h : Fin 16) (d e : Fin 64) : EReal :=
  ∑ i ∈ Finset.univ.filter (fun i : Fin 16 => i.val ≤ j), ∑ r : Fin 256, term V c b (tok i r) h d e

theorem upTo_first (c : Dev nD) (b : Fin 4) (j : Fin 16) (hj : j.val = 0) (h : Fin 16) (d e : Fin 64) :
    upTo V c b j.val h d e = ∑ r : Fin 256, term V c b (tok j r) h d e := by
  unfold upTo
  rw [show Finset.univ.filter (fun i : Fin 16 => i.val ≤ j.val) = {j} from by
    ext i; simp only [Finset.mem_filter, Finset.mem_univ, true_and, Finset.mem_singleton, Fin.ext_iff]; omega]
  exact Finset.sum_singleton _ _

theorem upTo_step (c : Dev nD) (b : Fin 4) (j : Fin 16) (hj : j.val ≠ 0) (h : Fin 16) (d e : Fin 64) :
    upTo V c b j.val h d e = upTo V c b (j.val - 1) h d e + ∑ r : Fin 256, term V c b (tok j r) h d e := by
  unfold upTo
  rw [show Finset.univ.filter (fun i : Fin 16 => i.val ≤ j.val) = insert j (Finset.univ.filter (fun i : Fin 16 => i.val ≤ j.val - 1)) from by
    ext i; simp only [Finset.mem_filter, Finset.mem_univ, true_and, Finset.mem_insert, Fin.ext_iff]; omega]
  rw [Finset.sum_insert (by simp only [Finset.mem_filter, Finset.mem_univ, true_and]; omega), add_comm]

theorem upTo_all (c : Dev nD) (b : Fin 4) (h : Fin 16) (d e : Fin 64) :
    upTo V c b 15 h d e = ∑ i : Fin 16, ∑ r : Fin 256, term V c b (tok i r) h d e := by
  unfold upTo
  rw [Finset.filter_true_of_mem fun i _ => by have := i.isLt; omega]

/-! ## A tile's accumulation at a point, in the arrays' terms -/

theorem tile_key (c : Dev nD) (t : Fin cfg0.N) (b : Fin 4) (j : Fin 16) (hb : t.val / 16 = b.val) (hj : t.val % 16 = j.val)
    (r : Fin 256) (h : Fin 16) (d : Fin 64) :
    tileNormed (iblk0 V c 0 t) (iblk0 V c 1 t) (iblk0 V c 3 t) (iblk0 V c 4 t) r h d
      = normed (V c main_arg0) (V c main_v4) (V c main_arg2) (V c main_arg3) b (tok j r) h d := by
  unfold tileNormed tileHead normed head
  simp only [tokens_block V c t b j hb hj, key_matrix_block V c t, key_scale_block V c t, key_shift_block V c t]

theorem tile_value (c : Dev nD) (t : Fin cfg0.N) (b : Fin 4) (j : Fin 16) (hb : t.val / 16 = b.val) (hj : t.val % 16 = j.val)
    (r : Fin 256) (h : Fin 16) (e : Fin 64) :
    tileNormed (iblk0 V c 0 t) (iblk0 V c 2 t) (iblk0 V c 5 t) (iblk0 V c 6 t) r h e
      = normed (V c main_arg0) (V c main_v5) (V c main_arg4) (V c main_arg5) b (tok j r) h e := by
  unfold tileNormed tileHead normed head
  simp only [tokens_block V c t b j hb hj, value_matrix_block V c t, value_scale_block V c t, value_shift_block V c t]

/-- Point `t`'s accumulation onto a block `acc`: the old entry plus the tile's 256 contributions. -/
theorem tile_step (c : Dev nD) (t : Fin cfg0.N) (b : Fin 4) (j : Fin 16) (hb : t.val / 16 = b.val) (hj : t.val % 16 = j.val)
    (acc : Vec Ideal S1x16x64x64 .f32) (u : Fin 1) (h : Fin 16) (d e : Fin 64) :
    Cert.LinAttn.Cases.tile (iblk0 V c 0 t) (iblk0 V c 1 t) (iblk0 V c 2 t) (iblk0 V c 3 t) (iblk0 V c 4 t) (iblk0 V c 5 t)
        (iblk0 V c 6 t) acc (ix4 u h d e)
      = acc (ix4 (0 : Fin 1) h d e) + ∑ r : Fin 256, term V c b (tok j r) h d e := by
  refine (tile_apply (iblk0 V c 0 t) (iblk0 V c 1 t) (iblk0 V c 2 t) (iblk0 V c 3 t) (iblk0 V c 4 t) (iblk0 V c 5 t)
    (iblk0 V c 6 t) acc u h d e).trans ?_
  refine congrArg (_ + ·) (Finset.sum_congr rfl fun r _ => ?_)
  unfold term
  rw [tile_key V c t b j hb hj, tile_value V c t b j hb hj]

/-- The zero block the first tile stores, read at an entry. -/
theorem zero_block (u : Fin 1) (h : Fin 16) (d e : Fin 64) : (k0_pay2 (F := Ideal)) (ix4 u h d e) = 0 := by
  unfold k0_pay2
  rw [shapeCast_abc_1abc_apply, broadcast_apply]
  exact Cert.LinAttn.zero_eq

/-- The closing scale, read at an entry. -/
theorem scale_block (v : Vec Ideal S1x16x64x64 .f32) (u : Fin 1) (h : Fin 16) (d e : Fin 64) :
    k0_pay1 v (ix4 u h d e) = v (ix4 (0 : Fin 1) h d e) * Ideal.ofBits .f32 0x39800000#32 := by
  unfold k0_pay1
  rw [shapeCast_abc_1abc_apply, mulf_apply, shapeCast_1abc_abc_apply, broadcast_apply]
  rfl

end Cert.LinAttn.Scores

end
-- ==== Proof.ScoreRun.lean ====
/-
  The induction over the first region's points and its conclusion: a batch's score block, after the write-back at
  the batch's last tile, is the specification's score matrix of that batch; the 4 batches' blocks tile the score
  array, so after the region the array holds the specification's `scores` of the arrays the region found.
-/
import proofs.«139104_j27487790695180_1_alg».proof.Proof.ScoreAcc

set_option maxRecDepth 16384

noncomputable section

namespace Cert.LinAttn.Scores

open Idealize.ShloMosaic Idealize.ShloMosaic.TcCoe Idealize.ShloMosaic.ValueIdx Idealize.SL.Sem
open Idealize.ShloMosaic.Pipeline (Dat)
open Cert.KernelIdeal Cert.KernelIdeal.Gen Cert.LinAttn.Tile

variable (V : (c : Dev nD) → (b : Ref sig .tc) → Buf (Elt Ideal) ((c : Thread nD τ).loc b))

/-- After tile `j` of batch `b`, not the last one, the block holds the contributions of tiles `0 … j`. -/
theorem running (c : Dev nD) : ∀ (n : ℕ) (hn : n < cfg0.N), n % 16 ≠ 15 → ∀ (b : Fin 4), n / 16 = b.val →
    ∀ (u : Fin 1) (h : Fin 16) (d e : Fin 64), outsAt0 V c n hn (ix4 u h d e) = upTo V c b (n % 16) h d e
  | 0, hn, _, b, hb, u, h, d, e => by
    rw [outsAt0_A V c ⟨0, hn⟩ rfl (by show ¬(0 % 16 = 15); decide), Cert.LinAttn.Cases.first,
      tile_step V c ⟨0, hn⟩ b 0 hb rfl, zero_block, zero_add]
    exact (upTo_first V c b 0 rfl h d e).symm
  | n + 1, hn, hne, b, hb, u, h, d, e => by
    have hN : cfg0.N = 64 := N_0
    have hlt : (n + 1) % 16 < 16 := Nat.mod_lt _ (by decide)
    by_cases h0 : (n + 1) % 16 = 0
    · rw [outsAt0_A V c ⟨n + 1, hn⟩ h0 hne, Cert.LinAttn.Cases.first,
        tile_step V c ⟨n + 1, hn⟩ b ⟨(n + 1) % 16, hlt⟩ hb rfl, zero_block, zero_add]
      exact (upTo_first V c b ⟨(n + 1) % 16, hlt⟩ h0 h d e).symm
    · rw [outsAt0_B V c ⟨n + 1, hn⟩ h0 hne, Cert.LinAttn.Cases.middle,
        tile_step V c ⟨n + 1, hn⟩ b ⟨(n + 1) % 16, hlt⟩ hb rfl]
      have ih := running c n (Nat.lt_of_succ_lt hn) (by omega) b (by omega) 0 h d e
      rw [upTo_step V c b ⟨(n + 1) % 16, hlt⟩ h0 h d e]
      refine congrArg (· + _) ?_
      show outsAt0 V c n _ (ix4 0 h d e) = upTo V c b ((n + 1) % 16 - 1) h d e
      rw [ih, show (n + 1) % 16 - 1 = n % 16 from by omega]

/-- After the last tile of batch `b` the block is the batch's score matrix. -/
theorem closing (c : Dev nD) (n : ℕ) (hn : n < cfg0.N) (h15 : n % 16 = 15) (b : Fin 4) (hb : n / 16 = b.val)
    (u : Fin 1) (h : Fin 16) (d e : Fin 64) :
    outsAt0 V c n hn (ix4 u h d e) = scores (V c main_arg0) (V c main_v4) (V c main_v5) (V c main_arg2) (V c main_arg3) (V c main_arg4) (V c main_arg5) (ix4 b h d e) := by
  have hN : cfg0.N = 64 := N_0
  obtain ⟨k, rfl⟩ : ∃ k, n = k + 1 := ⟨n - 1, by omega⟩
  have h0 : ¬(k + 1) % 16 = 0 := by omega
  rw [outsAt0_C V c ⟨k + 1, hn⟩ h0 h15, Cert.LinAttn.Cases.last, scale_block,
    tile_step V c ⟨k + 1, hn⟩ b ⟨15, by decide⟩ hb h15]
  have ih := running V c k (Nat.lt_of_succ_lt hn) (by omega) b (by omega) 0 h d e
  have hs := upTo_step V c b ⟨15, by decide⟩ (by decide) h d e
  have hall := upTo_all V c b h d e
  show (outsAt0 V c k _ (ix4 0 h d e) + _) * _ = _
  rw [ih, show k % 16 = 14 from by omega]
  have e1 : upTo V c b 14 h d e + ∑ r : Fin 256, term V c b (tok ⟨15, by decide⟩ r) h d e
      = ∑ i : Fin 16, ∑ r : Fin 256, term V c b (tok i r) h d e := hs.symm.trans hall
  rw [e1]
  exact scaled_tiles fun n => term V c b n h d e

/-- What the batch's last tile writes back is the batch's block of the specification's score array. -/
theorem flushed_eq (c : Dev nD) (t : Fin cfg0.N) (hf : (cfg0.win 7).flush t = true) :
    (dat0 V c).flushed 7 t = ((cfg0.win 7).blk t).view.read (Elt Ideal) (scores (V c main_arg0) (V c main_v4) (V c main_v5) (V c main_arg2) (V c main_arg3) (V c main_arg4) (V c main_arg5)) := by
  have hN : cfg0.N = 64 := N_0
  have h15 : t.val % 16 = 15 := (flush0_7 t).mp hf
  have e := idx0 t
  have hb : t.val / 16 < 4 := by have := t.isLt; omega
  show (cfg0.win 7).cut (grid0.coords t) ((dat0 V c).after 7 t) = _
  rw [after0_7]
  funext y
  obtain ⟨u, h, d, e', rfl⟩ : ∃ (u : Fin 1) (h : Fin 16) (d e' : Fin 64), y = ix4 u h d e' := ⟨y 0, y 1, y 2, y 3, eq_ix4 y⟩
  have hu : u.val = 0 := by omega
  refine (closing V c t.val t.isLt h15 ⟨t.val / 16, hb⟩ rfl u h d e').trans ?_
  show scores (V c main_arg0) (V c main_v4) (V c main_v5) (V c main_arg2) (V c main_arg3) (V c main_arg4) (V c main_arg5) (ix4 ⟨t.val / 16, hb⟩ h d e')
    = scores (V c main_arg0) (V c main_v4) (V c main_v5) (V c main_arg2) (V c main_arg3) (V c main_arg4) (V c main_arg5) (((cfg0.win 7).blk t).view.emb (ix4 u h d e'))
  refine congrArg (scores (V c main_arg0) (V c main_v4) (V c main_v5) (V c main_arg2) (V c main_arg3) (V c main_arg4) (V c main_arg5)) (funext fun a => Fin.ext ?_)
  match a with
  | ⟨0, _⟩ => show t.val / 16 = win0_7.index t (0 : Fin 4) * 1 + 1 * u.val; omega
  | ⟨1, _⟩ => show h.val = win0_7.index t (1 : Fin 4) * 16 + 1 * h.val; omega
  | ⟨2, _⟩ => show d.val = win0_7.index t (2 : Fin 4) * 64 + 1 * d.val; omega
  | ⟨3, _⟩ => show e'.val = win0_7.index t (3 : Fin 4) * 64 + 1 * e'.val; omega

/-- An index of the score array is in point `t`'s block iff each coordinate is in the block's range on its axis. -/
theorem mem_blk (t : Fin cfg0.N) (i : S4x16x64x64.Idx) :
    i ∈ ((cfg0.win 7).blk t).view.set ↔ ∀ a : Fin 4, win0_7.index t a * S1x16x64x64.size a ≤ (i a).val
      ∧ (i a).val < win0_7.index t a * S1x16x64x64.size a + S1x16x64x64.size a := by
  show i ∈ ((View.whole main_v7).slice (win0_7.rect t)).set ↔ _
  rw [View.set_slice_whole, Rect.mem_set_unit]
  exact Iff.rfl

/-- THE SCORE ARRAY after the first region: the specification's scores of the arrays the region found. The entry
    of batch `b` is covered by the write-back of the batch's last tile, point `16 b + 15`. -/
theorem final (c : Dev nD) : (dat0 V c).arrAt 7 cfg0.N = scores (V c main_arg0) (V c main_v4) (V c main_v5) (V c main_arg2) (V c main_arg3) (V c main_arg4) (V c main_arg5) :=
  (dat0 V c).arrAt_eq_of_cover 7 (scores (V c main_arg0) (V c main_v4) (V c main_v5) (V c main_arg2) (V c main_arg3) (V c main_arg4) (V c main_arg5)) (flushed_eq V c) fun i => by
    have hN : cfg0.N = 64 := N_0
    have hi0 : (i 0).val < 4 := (i 0).isLt
    have hi1 : (i 1).val < 16 := (i 1).isLt
    have hi2 : (i 2).val < 64 := (i 2).isLt
    have hi3 : (i 3).val < 64 := (i 3).isLt
    have ht : 16 * (i 0).val + 15 < cfg0.N := by omega
    have e := idx0 ⟨16 * (i 0).val + 15, ht⟩
    have hv : (⟨16 * (i 0).val + 15, ht⟩ : Fin cfg0.N).val = 16 * (i 0).val + 15 := rfl
    refine ⟨⟨16 * (i 0).val + 15, ht⟩, (flush0_7 _).mpr (by rw [hv]; omega), ?_⟩
    rw [mem_blk]
    intro a
    match a with
    | ⟨0, _⟩ => show win0_7.index ⟨16 * (i 0).val + 15, ht⟩ (0 : Fin 4) * 1 ≤ (i 0).val ∧ (i 0).val < win0_7.index ⟨16 * (i 0).val + 15, ht⟩ (0 : Fin 4) * 1 + 1; omega
    | ⟨1, _⟩ => show win0_7.index ⟨16 * (i 0).val + 15, ht⟩ (1 : Fin 4) * 16 ≤ (i 1).val ∧ (i 1).val < win0_7.index ⟨16 * (i 0).val + 15, ht⟩ (1 : Fin 4) * 16 + 16; omega
    | ⟨2, _⟩ => show win0_7.index ⟨16 * (i 0).val + 15, ht⟩ (2 : Fin 4) * 64 ≤ (i 2).val ∧ (i 2).val < win0_7.index ⟨16 * (i 0).val + 15, ht⟩ (2 : Fin 4) * 64 + 64; omega
    | ⟨3, _⟩ => show win0_7.index ⟨16 * (i 0).val + 15, ht⟩ (3 : Fin 4) * 64 ≤ (i 3).val ∧ (i 3).val < win0_7.index ⟨16 * (i 0).val + 15, ht⟩ (3 : Fin 4) * 64 + 64; omega

end Cert.LinAttn.Scores

end
-- ==== Proof.OutProducts.lean ====
/-
  The two matrix products of the output stage's body, read at an index of their results as plain sums over the
  contracted position: the 256 × 1024 by 1024 × 1024 product (used twice: the query projection and the output matrix)
  and the per-head 256 × 64 by 64 × 64 product with the head as a batch axis. Both accumulate into zero.
-/
import proofs.«139104_j27487790695180_1_alg».proof.Proof.Gen.KernelIdeal
import Idealize.ShloMosaic.Lib.ValueIdx
import Idealize.ShloMosaic.PureOps.Ideal.Laws

noncomputable section

namespace Cert.LinAttn.Out

open Cert.KernelIdeal Cert.KernelIdeal.Gen Idealize.ShloMosaic Idealize.ShloMosaic.ValueIdx

/-! ## The two products' operand indices, coordinate by coordinate -/

theorem mm_lhs0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem mm_lhs1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem mm_rhs0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem mm_rhs1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256 × 1024 by 1024 × 1024 product into the zero accumulator, read at row `r`, column `c`: the sum over the
    1024 contracted positions of the row's entry times the column's. -/
theorem mm_apply {φ₁ φ₂ : FTy} (a : FVec Ideal S256x1024 φ₁) (b : FVec Ideal S1024x1024 φ₂) (r : Fin 256) (c : Fin 1024) :
    matmul dot_S256x1024_S1024x1024_S256x1024_1_0_0_1_n_n none a b (constant (F := Ideal) S256x1024 .f32 0x00000000#32) (ix2 r c)
      = ∑ k : Fin 1024, a (ix2 r k) * b (ix2 k c) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r c) ((contrEquiv1 dot_S256x1024_S1024x1024_S256x1024_1_0_0_1_n_n 1024 rfl rfl).symm k) = ix2 r k := funext fun a => Fin.ext (by
    match a with
    | ⟨0, _⟩ => exact mm_lhs0 _ _
    | ⟨1, _⟩ => exact (mm_lhs1 _ _).trans hk)
  have er : dot_S256x1024_S1024x1024_S256x1024_1_0_0_1_n_n.rhsIdx (ix2 r c) ((contrEquiv1 dot_S256x1024_S1024x1024_S256x1024_1_0_0_1_n_n 1024 rfl rfl).symm k) = ix2 k c := funext fun a => Fin.ext (by
    match a with
    | ⟨0, _⟩ => exact (mm_rhs0 _ _).trans hk
    | ⟨1, _⟩ => exact mm_rhs1 _ _)
  rw [el, er]

theorem bmm_lhs0 (i : S16x256x64.Idx) (q : dot_S16x256x64_S16x64x64_S16x256x64_2_1_1_2_0_0.contr.Idx) :
    (dot_S16x256x64_S16x64x64_S16x256x64_2_1_1_2_0_0.lhsIdx i q 0).val = (i 0).val := by
  unfold DotDims.lhsIdx
  rw [dif_pos (show (0 : Fin S16x256x64.rank) ∈ dot_S16x256x64_S16x64x64_S16x256x64_2_1_1_2_0_0.lhsBatch by decide)]
  rfl
theorem bmm_lhs1 (i : S16x256x64.Idx) (q : dot_S16x256x64_S16x64x64_S16x256x64_2_1_1_2_0_0.contr.Idx) :
    (dot_S16x256x64_S16x64x64_S16x256x64_2_1_1_2_0_0.lhsIdx i q 1).val = (i 1).val := by
  unfold DotDims.lhsIdx
  rw [dif_neg (show ¬(1 : Fin S16x256x64.rank) ∈ dot_S16x256x64_S16x64x64_S16x256x64_2_1_1_2_0_0.lhsBatch by decide), dif_pos (show (1 : Fin S16x256x64.rank) ∈ dot_S16x256x64_S16x64x64_S16x256x64_2_1_1_2_0_0.lhsNonContracting by decide)]
  rfl
theorem bmm_lhs2 (i : S16x256x64.Idx) (q : dot_S16x256x64_S16x64x64_S16x256x64_2_1_1_2_0_0.contr.Idx) :
    (dot_S16x256x64_S16x64x64_S16x256x64_2_1_1_2_0_0.lhsIdx i q 2).val = (q ⟨0, by decide⟩).val :=
  dot_S16x256x64_S16x64x64_S16x256x64_2_1_1_2_0_0.lhsIdx_val_of_single rfl i q
theorem bmm_rhs0 (i : S16x256x64.Idx) (q : dot_S16x256x64_S16x64x64_S16x256x64_2_1_1_2_0_0.contr.Idx) :
    (dot_S16x256x64_S16x64x64_S16x256x64_2_1_1_2_0_0.rhsIdx i q 0).val = (i 0).val := by
  unfold DotDims.rhsIdx
  rw [dif_pos (show (0 : Fin S16x64x64.rank) ∈ dot_S16x256x64_S16x64x64_S16x256x64_2_1_1_2_0_0.rhsBatch by decide)]
  rfl
theorem bmm_rhs1 (i : S16x256x64.Idx) (q : dot_S16x256x64_S16x64x64_S16x256x64_2_1_1_2_0_0.contr.Idx) :
    (dot_S16x256x64_S16x64x64_S16x256x64_2_1_1_2_0_0.rhsIdx i q 1).val = (q ⟨0, by decide⟩).val :=
  dot_S16x256x64_S16x64x64_S16x256x64_2_1_1_2_0_0.rhsIdx_val_of_single rfl i q
theorem bmm_rhs2 (i : S16x256x64.Idx) (q : dot_S16x256x64_S16x64x64_S16x256x64_2_1_1_2_0_0.contr.Idx) :
    (dot_S16x256x64_S16x64x64_S16x256x64_2_1_1_2_0_0.rhsIdx i q 2).val = (i 2).val := by
  unfold DotDims.rhsIdx
  rw [dif_neg (show ¬(2 : Fin S16x64x64.rank) ∈ dot_S16x256x64_S16x64x64_S16x256x64_2_1_1_2_0_0.rhsBatch by decide), dif_pos (show (2 : Fin S16x64x64.rank) ∈ dot_S16x256x64_S16x64x64_S16x256x64_2_1_1_2_0_0.rhsNonContracting by decide)]
  rfl

/-- The per-head product, 16 × 256 × 64 by 16 × 64 × 64 with the head a batch axis, into the zero accumulator, read at
    head `h`, row `r`, lane `e`: the sum over the 64 contracted lanes. -/
theorem bmm_apply {φ₁ φ₂ : FTy} (a : FVec Ideal S16x256x64 φ₁) (b : FVec Ideal S16x64x64 φ₂) (h : Fin 16) (r : Fin 256) (e : Fin 64) :
    matmul dot_S16x256x64_S16x64x64_S16x256x64_2_1_1_2_0_0 none a b (constant (F := Ideal) S16x256x64 .f32 0x00000000#32) (ix3 h r e)
      = ∑ d : Fin 64, a (ix3 h r d) * b (ix3 h d e) := by
  simp only [matmul]
  rw [Ideal.matmul_constant_zero_apply, ← Equiv.sum_comp (contrEquiv1 dot_S16x256x64_S16x64x64_S16x256x64_2_1_1_2_0_0 64 rfl rfl).symm]
  refine Finset.sum_congr rfl fun k _ => ?_
  have hk := contrEquiv1_symm_val dot_S16x256x64_S16x64x64_S16x256x64_2_1_1_2_0_0 64 rfl rfl k
  have el : dot_S16x256x64_S16x64x64_S16x256x64_2_1_1_2_0_0.lhsIdx (ix3 h r e) ((contrEquiv1 dot_S16x256x64_S16x64x64_S16x256x64_2_1_1_2_0_0 64 rfl rfl).symm k) = ix3 h r k := funext fun a => Fin.ext (by
    match a with
    | ⟨0, _⟩ => exact bmm_lhs0 _ _
    | ⟨1, _⟩ => exact bmm_lhs1 _ _
    | ⟨2, _⟩ => exact (bmm_lhs2 _ _).trans hk)
  have er : dot_S16x256x64_S16x64x64_S16x256x64_2_1_1_2_0_0.rhsIdx (ix3 h r e) ((contrEquiv1 dot_S16x256x64_S16x64x64_S16x256x64_2_1_1_2_0_0 64 rfl rfl).symm k) = ix3 h k e := funext fun a => Fin.ext (by
    match a with
    | ⟨0, _⟩ => exact bmm_rhs0 _ _
    | ⟨1, _⟩ => exact (bmm_rhs1 _ _).trans hk
    | ⟨2, _⟩ => exact bmm_rhs2 _ _)
  rw [el, er]

end Cert.LinAttn.Out

end
-- ==== Proof.OutLayout.lean ====
/-
  The re-layings in the output stage's body, each read at an index built from its coordinates: the block's leading unit
  axis dropped and added back, the 1024 columns cut into 16 heads of 64 lanes (lane `d` of head `h` is column
  `64 h + d`) and laid side by side again (column `k` is lane `k % 64` of head `k / 64`), rows and heads exchanged, and
  the bias repeated down the rows.
-/
import proofs.«139104_j27487790695180_1_alg».proof.Proof.Gen.KernelIdeal
import proofs.«139104_j27487790695180_1_alg».proof.Proof.Spec
import Idealize.ShloMosaic.Lib.Pipeline.Value
import Idealize.ShloMosaic.Lib.ValueIdx

noncomputable section

namespace Cert.LinAttn.Out

open Cert.KernelIdeal Cert.KernelIdeal.Gen Cert.LinAttn Idealize.ShloMosaic Idealize.ShloMosaic.ValueIdx

/-! ## The body's re-layings, read at an index -/

section Layout
variable {α : Type}

/-- The input block's leading unit axis dropped: row `r`, column `k` of the 256 × 1024 view is the block at `(0, r, k)`. -/
theorem dropUnit_rows_apply (x : S1x256x1024.Idx → α) (r : Fin 256) (k : Fin 1024) :
    shapeCast S256x1024 x shapeCasts_S1x256x1024_S256x1024 (ix2 r k) = x (ix3 (0 : Fin 1) r k) :=
  shapeCast_apply x _ (ix2 r k) (ix3 (0 : Fin 1) r k) (by
    rw [Shape.rowMajor_val_three, Shape.rowMajor_val_two]
    show (0 * 256 + r.val) * 1024 + k.val = r.val * 1024 + k.val
    omega)

/-- The result's leading unit axis added back. -/
theorem addUnit_rows_apply (x : S256x1024.Idx → α) (r : Fin 256) (j : Fin 1024) :
    shapeCast S1x256x1024 x shapeCasts_S256x1024_S1x256x1024 (ix3 (0 : Fin 1) r j) = x (ix2 r j) :=
  shapeCast_apply x _ (ix3 (0 : Fin 1) r j) (ix2 r j) (by
    rw [Shape.rowMajor_val_three, Shape.rowMajor_val_two]
    show r.val * 1024 + j.val = (0 * 256 + r.val) * 1024 + j.val
    omega)

/-- The 1024 columns cut into 16 heads of 64 lanes: lane `d` of head `h` is column `64 h + d`. -/
theorem split_heads_apply (x : S256x1024.Idx → α) (r : Fin 256) (h : Fin 16) (d : Fin 64) :
    shapeCast S256x16x64 x shapeCasts_S256x1024_S256x16x64 (ix3 r h d) = x (ix2 r (hcol h d)) :=
  shapeCast_apply x _ (ix3 r h d) (ix2 r (hcol h d)) (by
    rw [Shape.rowMajor_val_three, Shape.rowMajor_val_two]
    show r.val * 1024 + (64 * h.val + d.val) = (r.val * 16 + h.val) * 64 + d.val
    omega)

/-- The heads laid side by side again: column `k` is lane `k % 64` of head `k / 64`. -/
theorem merge_heads_apply (x : S256x16x64.Idx → α) (r : Fin 256) (k : Fin 1024) :
    shapeCast S256x1024 x shapeCasts_S256x16x64_S256x1024 (ix2 r k)
      = x (ix3 r (⟨k.val / 64, by have := k.isLt; omega⟩ : Fin 16) (⟨k.val % 64, by omega⟩ : Fin 64)) :=
  shapeCast_apply x _ (ix2 r k) (ix3 r (⟨k.val / 64, by have := k.isLt; omega⟩ : Fin 16) (⟨k.val % 64, by omega⟩ : Fin 64)) (by
    rw [Shape.rowMajor_val_three, Shape.rowMajor_val_two]
    show (r.val * 16 + k.val / 64) * 64 + k.val % 64 = r.val * 1024 + k.val
    omega)

/-- The score block's leading unit axis dropped. -/
theorem dropUnit_scores_apply (x : S1x16x64x64.Idx → α) (h : Fin 16) (d e : Fin 64) :
    shapeCast S16x64x64 x shapeCasts_S1x16x64x64_S16x64x64 (ix3 h d e) = x (ix4 (0 : Fin 1) h d e) :=
  shapeCast_apply x _ (ix3 h d e) (ix4 (0 : Fin 1) h d e) (by
    rw [Shape.rowMajor_val_four, Shape.rowMajor_val_three]
    show ((0 * 16 + h.val) * 64 + d.val) * 64 + e.val = (h.val * 64 + d.val) * 64 + e.val
    omega)

/-- The bias as one row. -/
theorem bias_row_apply (x : S1024.Idx → α) (j : Fin 1024) :
    shapeCast S1x1024 x shapeCasts_S1024_S1x1024 (ix2 (0 : Fin 1) j) = x (ix1 j) :=
  shapeCast_apply x _ (ix2 (0 : Fin 1) j) (ix1 j) (by
    rw [Shape.rowMajor_val_two, Shape.rowMajor_val_one]
    show j.val = 0 * 1024 + j.val
    omega)

/-- That row repeated down the 256 rows. -/
theorem bias_rows_apply (x : S1x1024.Idx → α) (r : Fin 256) (j : Fin 1024) :
    broadcastTo S256x1024 x broadcasts_S1x1024_S256x1024 (ix2 r j) = x (ix2 (0 : Fin 1) j) :=
  broadcastTo_apply x _ (ix2 r j) (ix2 (0 : Fin 1) j) (fun a => match a with
    | ⟨0, _⟩ => rfl
    | ⟨1, _⟩ => rfl)

/-- Rows and heads exchanged: head-major from row-major. -/
theorem heads_first_apply (x : S256x16x64.Idx → α) (h : Fin 16) (r : Fin 256) (d : Fin 64) :
    transpose S16x256x64 [1, 0, 2] x transposes_S256x16x64_p1_0_2_S16x256x64 (ix3 h r d) = x (ix3 r h d) :=
  transpose_apply _ x _ (ix3 h r d) (ix3 r h d) (fun b => match b with | ⟨0, _⟩ => rfl | ⟨1, _⟩ => rfl | ⟨2, _⟩ => rfl)

/-- And back: row-major from head-major. -/
theorem rows_first_apply (x : S16x256x64.Idx → α) (r : Fin 256) (h : Fin 16) (e : Fin 64) :
    transpose S256x16x64 [1, 0, 2] x transposes_S16x256x64_p1_0_2_S256x16x64 (ix3 r h e) = x (ix3 h r e) :=
  transpose_apply _ x _ (ix3 r h e) (ix3 h r e) (fun b => match b with | ⟨0, _⟩ => rfl | ⟨1, _⟩ => rfl | ⟨2, _⟩ => rfl)

end Layout

end Cert.LinAttn.Out

end
-- ==== Proof.OutPayload.lean ====
/-
  What the output stage's body stores, read at row `r`, column `j` of its block, as sums over the blocks it loads
  (`blockOut`), and that value as the specification's output at the array index the block element sits at, once each
  loaded block is known to be the part of its array that index names (`pay_eq_out`).
-/
import proofs.«139104_j27487790695180_1_alg».proof.Proof.Gen.KernelIdeal.Skeleton
import proofs.«139104_j27487790695180_1_alg».proof.Proof.OutProducts
import proofs.«139104_j27487790695180_1_alg».proof.Proof.OutLayout

noncomputable section

namespace Cert.LinAttn.Out

open Cert.KernelIdeal Cert.KernelIdeal.Gen Cert.LinAttn Idealize.ShloMosaic Idealize.ShloMosaic.ValueIdx

/-- Row `r`, column `j` of the stored block: the row's tokens projected by the query matrix and cut into heads, each
    head against its score matrix, the heads side by side through the output matrix, plus the bias. -/
def blockOut (x0 : Vec Ideal S1x256x1024 .f32) (x1 : Vec Ideal S1024x1024 .bf16) (x2 : Vec Ideal S1x16x64x64 .f32)
    (x3 : Vec Ideal S1024x1024 .bf16) (x4 : Vec Ideal S1024 .f32) (r : Fin 256) (j : Fin 1024) : EReal :=
  (∑ k : Fin 1024,
      (∑ d : Fin 64,
          (∑ k' : Fin 1024, x0 (ix3 (0 : Fin 1) r k') * x1 (ix2 k' (hcol (⟨k.val / 64, by have := k.isLt; omega⟩ : Fin 16) d)))
            * x2 (ix4 (0 : Fin 1) (⟨k.val / 64, by have := k.isLt; omega⟩ : Fin 16) d (⟨k.val % 64, by omega⟩ : Fin 64)))
        * x3 (ix2 k j))
    + x4 (ix1 j)

/-- The body's one stored value at `(0, r, j)` is `blockOut` there: each product is its sum over the contracted position
    and each re-laying reads one element. -/
theorem pay_apply (x0 : Vec Ideal S1x256x1024 .f32) (x1 : Vec Ideal S1024x1024 .bf16) (x2 : Vec Ideal S1x16x64x64 .f32)
    (x3 : Vec Ideal S1024x1024 .bf16) (x4 : Vec Ideal S1024 .f32) (r : Fin 256) (j : Fin 1024) :
    k1_pay1 (F := Ideal) x0 x1 x2 x3 x4 (ix3 (0 : Fin 1) r j) = blockOut x0 x1 x2 x3 x4 r j := by
  unfold k1_pay1 blockOut
  simp only [addUnit_rows_apply, addf_apply, mm_apply, truncf_apply, merge_heads_apply, rows_first_apply, bmm_apply,
    heads_first_apply, split_heads_apply, dropUnit_rows_apply, shapeCast_self, dropUnit_scores_apply, bias_rows_apply,
    bias_row_apply]

  refine congrArg (· + _) (Finset.sum_congr rfl fun k _ => ?_)
  refine congrArg (· * _) ?_
  rw [rows_first_apply, bmm_apply]
  refine Finset.sum_congr rfl fun d _ => ?_
  rw [truncf_apply, truncf_apply, heads_first_apply, split_heads_apply, mm_apply, dropUnit_scores_apply]
  simp only [truncf_apply, dropUnit_rows_apply]

/-- The stored value is the specification's output at array index `i`, when the block element `y` sits at `i`'s
    column, the token block holds row `i 1` of batch `i 0` at `y`'s row, the score block holds batch `i 0`'s score
    matrices, and the three whole-array blocks are their arrays. -/
theorem pay_eq_out (x0 : Vec Ideal S1x256x1024 .f32) (x1 : Vec Ideal S1024x1024 .bf16) (x2 : Vec Ideal S1x16x64x64 .f32)
    (x3 : Vec Ideal S1024x1024 .bf16) (x4 : Vec Ideal S1024 .f32) (X : TX) (WQ : TW) (S : TS) (WO : TW) (BO : TB)
    (y : S1x256x1024.Idx) (i : (⟨3, ![4, 4096, 1024]⟩ : Shape).Idx)
    (h0 : ∀ (r : Fin 256) (b : Fin 4) (n : Fin 4096) (k : Fin 1024), r.val = (y 1).val → b.val = (i 0).val → n.val = (i 1).val →
      x0 (ix3 (0 : Fin 1) r k) = X (ix3 b n k))
    (h1 : ∀ k c : Fin 1024, x1 (ix2 k c) = WQ (ix2 k c))
    (h2 : ∀ (b : Fin 4) (h : Fin 16) (d e : Fin 64), b.val = (i 0).val → x2 (ix4 (0 : Fin 1) h d e) = S (ix4 b h d e))
    (h3 : ∀ k c : Fin 1024, x3 (ix2 k c) = WO (ix2 k c))
    (h4 : ∀ c : Fin 1024, x4 (ix1 c) = BO (ix1 c))
    (hj : (i 2).val = (y 2).val) :
    k1_pay1 (F := Ideal) x0 x1 x2 x3 x4 y = out X WQ S WO BO i := by
  obtain ⟨y0, r, j, rfl⟩ : ∃ (y0 : Fin 1) (r : Fin 256) (j : Fin 1024), y = ix3 y0 r j := ⟨y 0, y 1, y 2, eq_ix3 y⟩
  obtain ⟨b, n, j', rfl⟩ : ∃ (b : Fin 4) (n : Fin 4096) (j' : Fin 1024), i = ix3 b n j' := ⟨i 0, i 1, i 2, eq_ix3 i⟩
  obtain rfl : y0 = 0 := Subsingleton.elim _ _
  obtain rfl : j' = j := Fin.ext hj
  rw [pay_apply]
  show blockOut x0 x1 x2 x3 x4 r j'
    = (∑ k : Fin 1024, attn X WQ S b n ⟨k.val / 64, by have := k.isLt; omega⟩ ⟨k.val % 64, by omega⟩ * WO (ix2 k j')) + BO (ix1 j')
  unfold blockOut attn head
  rw [h4 j']
  refine congrArg (· + _) (Finset.sum_congr rfl fun k _ => ?_)
  rw [h3 k j']
  refine congrArg (· * _) (Finset.sum_congr rfl fun d _ => ?_)
  rw [h2 b _ d _ rfl]
  refine congrArg (· * _) (Finset.sum_congr rfl fun k' _ => ?_)
  rw [h0 r b n k' rfl rfl rfl, h1]

end Cert.LinAttn.Out

end
-- ==== Proof.OutValue.lean ====
/-
  Region 1's output array after its run is the specification's output stage of the arrays the region finds: what each
  grid point writes back is its 256-token block of that one whole-array function (each loaded block is the part of its
  array the output block's position names: batch `b`, token tile `ni` for the tokens, batch `b` for the scores, the whole
  array for the two matrices and the bias), and the 4 × 16 blocks cover the array (token row `n` of batch `b` lies in
  the block of point `(b, n / 256)`).
-/
import proofs.«139104_j27487790695180_1_alg».proof.Proof.Gen.KernelIdeal.Frame
import proofs.«139104_j27487790695180_1_alg».proof.Proof.OutPayload
import Idealize.ShloMosaic.Lib.Pipeline.Value

noncomputable section

namespace Cert.LinAttn.Out

open Cert.KernelIdeal Cert.KernelIdeal.Gen Cert.LinAttn Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, spelt as the constant function, at ranks 1 to 4. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The output array as ONE function of the arrays the region finds: the specification's output stage of the tokens, the
    query matrix, the score matrices, the output matrix and the bias. -/
abbrev outArr (c : Dev nD) : Buf (Elt Ideal) ((c : Thread nD τ).loc main_v8) :=
  out (V c main_arg0) (V c main_v3) (V c main_v7) (V c main_v6) (V c main_arg7)

/-- The index maps over the 64 grid points: the token block moves with the output block on batch and token tile, the
    score block on batch, the two matrices and the bias stay at block zero, and the output's block indices stay in range. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 2) = 0 ∧ win1_1.index t (1 : Fin 2) = 0
    ∧ win1_2.index t (0 : Fin 4) = win1_5.index t (0 : Fin 3) ∧ win1_2.index t (1 : Fin 4) = 0
    ∧ win1_2.index t (2 : Fin 4) = 0 ∧ win1_2.index t (3 : Fin 4) = 0
    ∧ win1_3.index t (0 : Fin 2) = 0 ∧ win1_3.index t (1 : Fin 2) = 0
    ∧ win1_4.index t (0 : Fin 1) = 0
    ∧ win1_5.index t (0 : Fin 3) ≤ 3 ∧ win1_5.index t (1 : Fin 3) ≤ 15 ∧ win1_5.index t (2 : Fin 3) = 0 :=
  (by decide +kernel : ∀ t : Fin grid1.N, _)

/-- Every (batch, token tile) pair is SOME point's output block. -/
theorem idx_onto : ∀ (q0 : Fin 4) (q1 : Fin 16), ∃ t : Fin cfg1.N, win1_5.index t = ![q0.val, q1.val, 0] :=
  (by decide +kernel : ∀ (q0 : Fin 4) (q1 : Fin 16), ∃ t : Fin grid1.N, win1_5.index t = ![q0.val, q1.val, 0])

/-- An index of the output array is in point `t`'s block iff each coordinate is in the block's range on its axis. -/
theorem mem_blk (t : Fin cfg1.N) (i : S4x4096x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v8).slice (win1_5.rect t)).set ↔ _
  rw [View.set_slice_whole, Rect.mem_set_unit]
  exact Iff.rfl

/-- The blocks cover the array: token row `n` of batch `b` is in the block of the point with block index `(b, n / 256, 0)`. -/
theorem cover (i : S4x4096x1024.Idx) : ∃ t : Fin cfg1.N, (cfg1.win 5).flush t = true ∧ i ∈ ((cfg1.win 5).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- WHAT POINT `t` WRITES BACK is its block of `outArr`: the body's one store covers the staging buffer, and its value at
    a block element is the specification's output at the array index that element sits at. -/
theorem flushed_eq (c : Dev nD) (t : Fin cfg1.N) :
    (dat1 (F := Ideal) V c).flushed 5 t = ((cfg1.win 5).blk t).view.read (Elt Ideal) (outArr V c) := by
  show (cfg1.win 5).cut (grid1.coords t) ((dat1 V c).after 5 t) = _
  rw [after1_5]
  unfold out1_5
  rw [View.canon_unit_zero hz3]
  simp only [View.ld_unit_zero (S := S1x256x1024) hz3, View.ld_unit_zero (S := S1024x1024) hz2,
    View.ld_unit_zero (S := S1x16x64x64) hz4, View.ld_unit_zero (S := S1024) hz1]
  obtain ⟨e00, e01, e02, e10, e11, e20, e21, e22, e23, e30, e31, e40, b50, b51, e52⟩ := idx_facts t
  funext y
  have hy0 : (y 0).val < 1 := (y 0).isLt
  have hy1 : (y 1).val < 256 := (y 1).isLt
  have hy2 : (y 2).val < 1024 := (y 2).isLt
  show k1_pay1 (F := Ideal) (iblk1 V c 0 t) (iblk1 V c 1 t) (iblk1 V c 2 t) (iblk1 V c 3 t) (iblk1 V c 4 t) y
      = out (V c main_arg0) (V c main_v3) (V c main_v7) (V c main_v6) (V c main_arg7) (((cfg1.win 5).blk t).view.emb y)
  refine pay_eq_out _ _ _ _ _ _ _ _ _ _ y _ ?_ ?_ ?_ ?_ ?_ ?_
  · intro r b n k hr hb hn
    have hb' : b.val = win1_5.index t (0 : Fin 3) * 1 + 1 * (y 0).val := hb
    have hn' : n.val = win1_5.index t (1 : Fin 3) * 256 + 1 * (y 1).val := hn
    show V c main_arg0 (((cfg1.win 0).blk t).view.emb (ix3 (0 : Fin 1) r k)) = V c main_arg0 (ix3 b n k)
    refine congrArg _ (funext fun a => Fin.ext ?_)
    match a with
    | ⟨0, _⟩ => show win1_0.index t (0 : Fin 3) * 1 + 1 * 0 = b.val; omega
    | ⟨1, _⟩ => show win1_0.index t (1 : Fin 3) * 256 + 1 * r.val = n.val; omega
    | ⟨2, _⟩ => show win1_0.index t (2 : Fin 3) * 1024 + 1 * k.val = k.val; omega
  · intro k cc
    show V c main_v3 (((cfg1.win 1).blk t).view.emb (ix2 k cc)) = V c main_v3 (ix2 k cc)
    refine congrArg _ (funext fun a => Fin.ext ?_)
    match a with
    | ⟨0, _⟩ => show win1_1.index t (0 : Fin 2) * 1024 + 1 * k.val = k.val; omega
    | ⟨1, _⟩ => show win1_1.index t (1 : Fin 2) * 1024 + 1 * cc.val = cc.val; omega
  · intro b h d e hb
    have hb' : b.val = win1_5.index t (0 : Fin 3) * 1 + 1 * (y 0).val := hb
    show V c main_v7 (((cfg1.win 2).blk t).view.emb (ix4 (0 : Fin 1) h d e)) = V c main_v7 (ix4 b h d e)
    refine congrArg _ (funext fun a => Fin.ext ?_)
    match a with
    | ⟨0, _⟩ => show win1_2.index t (0 : Fin 4) * 1 + 1 * 0 = b.val; omega
    | ⟨1, _⟩ => show win1_2.index t (1 : Fin 4) * 16 + 1 * h.val = h.val; omega
    | ⟨2, _⟩ => show win1_2.index t (2 : Fin 4) * 64 + 1 * d.val = d.val; omega
    | ⟨3, _⟩ => show win1_2.index t (3 : Fin 4) * 64 + 1 * e.val = e.val; omega
  · intro k cc
    show V c main_v6 (((cfg1.win 3).blk t).view.emb (ix2 k cc)) = V c main_v6 (ix2 k cc)
    refine congrArg _ (funext fun a => Fin.ext ?_)
    match a with
    | ⟨0, _⟩ => show win1_3.index t (0 : Fin 2) * 1024 + 1 * k.val = k.val; omega
    | ⟨1, _⟩ => show win1_3.index t (1 : Fin 2) * 1024 + 1 * cc.val = cc.val; omega
  · intro cc
    show V c main_arg7 (((cfg1.win 4).blk t).view.emb (ix1 cc)) = V c main_arg7 (ix1 cc)
    refine congrArg _ (funext fun a => Fin.ext ?_)
    match a with
    | ⟨0, _⟩ => show win1_4.index t (0 : Fin 1) * 1024 + 1 * cc.val = cc.val; omega
  · show win1_5.index t (2 : Fin 3) * 1024 + 1 * (y 2).val = (y 2).val; omega

/-- THE OUTPUT ARRAY after region 1's run is the specification's output stage of the arrays the region finds. -/
theorem final (c : Dev nD) :
    (dat1 (F := Ideal) V c).arrAt 5 cfg1.N
      = out (V c main_arg0) (V c main_v3) (V c main_v7) (V c main_v6) (V c main_arg7) :=
  (dat1 (F := Ideal) V c).arrAt_eq_of_cover 5 (outArr V c) (fun t _ => flushed_eq V c t) cover

end Cert.LinAttn.Out

end
-- ==== Proof.Boundary.lean ====
/-
  The kernel program's buffers at the boundaries of its two regions.

  Before the first region the host cuts the joint weight (1024 × 3072) into its three thirds of 1024 columns and
  converts each, and the output matrix, to the narrower float type; on the extended reals a conversion is the identity,
  so the three converted buffers hold the thirds starting at columns 0, 1024 and 2048, and the fourth holds the output
  matrix. No host operation writes an argument. The first region writes only the score matrices' buffer and the
  second only the result's, so every other buffer a region reads is still what it was at the region before.
-/
import proofs.«139104_j27487790695180_1_alg».proof.Proof.Gen.KernelIdeal.Frame
import proofs.«139104_j27487790695180_1_alg».proof.Proof.Spec
import Idealize.ShloMosaic.Lib.StableHlo.Run
import Idealize.ShloMosaic.Lib.Pipeline.Value
import Idealize.ShloMosaic.Lib.ValueLayout

noncomputable section

namespace Cert.LinAttn.Boundary

open Cert.KernelIdeal Cert.KernelIdeal.Gen Idealize.ShloMosaic Idealize.ShloMosaic.TcCoe Idealize.SL.Sem
  Idealize.ShloMosaic.ValueIdx

variable {m : (ℓ : Loc nD τ sig) → Buf (Elt Ideal) ℓ} {ρ : Dev nD → PrngReg} (c : Dev nD)

/-! ## After the host operations: the first region's entry -/

/-- The query weight: the converted first third of the joint weight. -/
theorem v1_wq :
    (V1 (F := Ideal) m ρ c main_v3 : S1024x1024.Idx → EReal) = third (m ((c : Thread nD τ).loc main_arg1)) 0 (by omega) := by
  show StableHlo.after hostOps0 (W0 m ρ c) (Proc.devRef .tc main_v3) = _
  after_results
  funext i
  obtain ⟨a, j, rfl⟩ : ∃ (a j : Fin 1024), i = ix2 a j := ⟨i 0, i 1, eq_ix2 i⟩
  exact slice2_axis1_eq (n0 := 1024) (n1 := 3072) (m := 1024) 0 (W0 m ρ c (Proc.devRef .tc main_arg1))
    slices_S1024x3072_S1024x1024_0_0 a j

/-- The key weight: the converted second third of the joint weight. -/
theorem v1_wk :
    (V1 (F := Ideal) m ρ c main_v4 : S1024x1024.Idx → EReal) = third (m ((c : Thread nD τ).loc main_arg1)) 1024 (by omega) := by
  show StableHlo.after hostOps0 (W0 m ρ c) (Proc.devRef .tc main_v4) = _
  after_results
  funext i
  obtain ⟨a, j, rfl⟩ : ∃ (a j : Fin 1024), i = ix2 a j := ⟨i 0, i 1, eq_ix2 i⟩
  exact slice2_axis1_eq (n0 := 1024) (n1 := 3072) (m := 1024) 1024 (W0 m ρ c (Proc.devRef .tc main_arg1))
    slices_S1024x3072_S1024x1024_0_1024 a j

/-- The value weight: the converted last third of the joint weight. -/
theorem v1_wv :
    (V1 (F := Ideal) m ρ c main_v5 : S1024x1024.Idx → EReal) = third (m ((c : Thread nD τ).loc main_arg1)) 2048 (by omega) := by
  show StableHlo.after hostOps0 (W0 m ρ c) (Proc.devRef .tc main_v5) = _
  after_results
  funext i
  obtain ⟨a, j, rfl⟩ : ∃ (a j : Fin 1024), i = ix2 a j := ⟨i 0, i 1, eq_ix2 i⟩
  exact slice2_axis1_eq (n0 := 1024) (n1 := 3072) (m := 1024) 2048 (W0 m ρ c (Proc.devRef .tc main_arg1))
    slices_S1024x3072_S1024x1024_0_2048 a j

/-- The converted output matrix is the output matrix. -/
theorem v1_wo : (V1 (F := Ideal) m ρ c main_v6 : S1024x1024.Idx → EReal) = m ((c : Thread nD τ).loc main_arg6) := by
  show StableHlo.after hostOps0 (W0 m ρ c) (Proc.devRef .tc main_v6) = _
  after_results
  rfl

/-- No host operation writes argument 0: at region 0's entry it holds its launch contents. -/
theorem v1_arg0 : V1 (F := Ideal) m ρ c main_arg0 = m ((c : Thread nD τ).loc main_arg0) := by
  show StableHlo.after hostOps0 (W0 m ρ c) (Proc.devRef .tc main_arg0) = _
  after_results

/-- No host operation writes argument 2: at region 0's entry it holds its launch contents. -/
theorem v1_arg2 : V1 (F := Ideal) m ρ c main_arg2 = m ((c : Thread nD τ).loc main_arg2) := by
  show StableHlo.after hostOps0 (W0 m ρ c) (Proc.devRef .tc main_arg2) = _
  after_results

/-- No host operation writes argument 3: at region 0's entry it holds its launch contents. -/
theorem v1_arg3 : V1 (F := Ideal) m ρ c main_arg3 = m ((c : Thread nD τ).loc main_arg3) := by
  show StableHlo.after hostOps0 (W0 m ρ c) (Proc.devRef .tc main_arg3) = _
  after_results

/-- No host operation writes argument 4: at region 0's entry it holds its launch contents. -/
theorem v1_arg4 : V1 (F := Ideal) m ρ c main_arg4 = m ((c : Thread nD τ).loc main_arg4) := by
  show StableHlo.after hostOps0 (W0 m ρ c) (Proc.devRef .tc main_arg4) = _
  after_results

/-- No host operation writes argument 5: at region 0's entry it holds its launch contents. -/
theorem v1_arg5 : V1 (F := Ideal) m ρ c main_arg5 = m ((c : Thread nD τ).loc main_arg5) := by
  show StableHlo.after hostOps0 (W0 m ρ c) (Proc.devRef .tc main_arg5) = _
  after_results

/-- No host operation writes argument 7: at region 0's entry it holds its launch contents. -/
theorem v1_arg7 : V1 (F := Ideal) m ρ c main_arg7 = m ((c : Thread nD τ).loc main_arg7) := by
  show StableHlo.after hostOps0 (W0 m ρ c) (Proc.devRef .tc main_arg7) = _
  after_results

/-! ## After the first region: the second region's entry -/

/-- The tokens are an input array of the first region: it leaves them as entered. -/
theorem v2_arg0 : V2 (F := Ideal) m ρ c main_arg0 = V1 (F := Ideal) m ρ c main_arg0 :=
  (W2_arr m ρ c 0).trans (((dat0 (V1 m ρ) c).arrAt_in 0 rfl _).trans (A_eq0 (V1 m ρ) c 0))

/-- The query weight is not an array of the first region. -/
theorem v2_wq : V2 (F := Ideal) m ρ c main_v3 = V1 (F := Ideal) m ρ c main_v3 :=
  W2_of_ne m ρ c main_v3 (by decide)

/-- The output matrix is not an array of the first region. -/
theorem v2_wo : V2 (F := Ideal) m ρ c main_v6 = V1 (F := Ideal) m ρ c main_v6 :=
  W2_of_ne m ρ c main_v6 (by decide)

/-- The bias is not an array of the first region. -/
theorem v2_arg7 : V2 (F := Ideal) m ρ c main_arg7 = V1 (F := Ideal) m ρ c main_arg7 :=
  W2_of_ne m ρ c main_arg7 (by decide)

/-- The score matrices' buffer holds what the first region's write-backs leave in its output array. -/
theorem v2_scores : V2 (F := Ideal) m ρ c main_v7 = (dat0 (V1 m ρ) c).arrAt 7 cfg0.N :=
  W2_arr m ρ c 7

/-! ## After the second region -/

/-- The result's buffer holds what the second region's write-backs leave in its output array. -/
theorem w3_result : W3 (F := Ideal) m ρ c (Proc.devRef .tc main_v8) = (dat1 (V2 m ρ) c).arrAt 5 cfg1.N :=
  W3_arr m ρ c 5

end Cert.LinAttn.Boundary

end
-- ==== Proof.KernelValue.lean ====
/-
  The idealized kernel's result. Walking the result buffer back through the program's boundaries: it holds what the
  second region's write-backs leave, the output stage of the specification applied to the arrays that region found —
  the tokens, the query third of the joint weight, the score array, the output matrix and the bias —; the score array
  is what the first region left, the specification's scores of the arrays IT found — the tokens, the key and value
  thirds, the four scale and shift tables —; and every array a region finds but does not write is a host operation's
  result (a third of the joint weight; a format change, the identity on extended reals) or an argument as launched.
  Put together this is the specification's `result` of the eight arguments.
-/
import proofs.«139104_j27487790695180_1_alg».proof.Proof.KernelRun
import proofs.«139104_j27487790695180_1_alg».proof.Proof.ScoreRun
import proofs.«139104_j27487790695180_1_alg».proof.Proof.OutValue
import proofs.«139104_j27487790695180_1_alg».proof.Proof.Boundary

set_option maxRecDepth 16384

noncomputable section

namespace Cert.LinAttn.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result buffer's last contents are the specification's result of the arguments as launched. -/
theorem value (c : Dev nD) : W3 m ρ c (Proc.devRef .tc main_v8) = Cert.LinAttn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.LinAttn.Boundary.w3_result, Cert.LinAttn.Out.final (V2 m ρ) c,
    Cert.LinAttn.Boundary.v2_arg0, Cert.LinAttn.Boundary.v2_wq, Cert.LinAttn.Boundary.v2_scores,
    Cert.LinAttn.Boundary.v2_wo, Cert.LinAttn.Boundary.v2_arg7, Cert.LinAttn.Scores.final (V1 m ρ) c,
    Cert.LinAttn.Boundary.v1_arg0, Cert.LinAttn.Boundary.v1_wq, Cert.LinAttn.Boundary.v1_wk, Cert.LinAttn.Boundary.v1_wv,
    Cert.LinAttn.Boundary.v1_wo, Cert.LinAttn.Boundary.v1_arg2, Cert.LinAttn.Boundary.v1_arg3, Cert.LinAttn.Boundary.v1_arg4,
    Cert.LinAttn.Boundary.v1_arg5, Cert.LinAttn.Boundary.v1_arg7]
  rfl

/-- The idealized kernel's run: the result array ends at the specification's result, the arguments as launched. -/
theorem run : θ_run defs (onTc (τ := τ) (main (F := Ideal))) ⟨m, fun _ => 0, ρ⟩ (fun r => ∀ c : Dev nD,
      r.2.mem ((c.tc : Thread nD τ).loc main_v8) = Cert.LinAttn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (Cert.LinAttn.Run.run_named (F := Ideal) m ρ)

end Cert.LinAttn.Kernel

end
-- ==== Proof.lean ====
/-
  The certificate of the linear-attention kernel against its reference.

  Both programs take tokens `x` (4 batches × 4096 tokens × 1024 features), a joint weight whose three thirds project
  queries, keys and values, four per-head scale and shift tables, an output matrix and a bias. Each projection is cut
  into 16 heads of 64 lanes; key and value heads are normalised over their lanes; a head's score matrix is the sum
  over all tokens of key lane × value lane, divided by the number of tokens; a query head times that matrix, the
  heads laid side by side, goes through the output matrix, plus the bias. `Cert.LinAttn.result` (Proof/Spec.lean)
  states this as one function of the eight arrays, index by index, on the extended reals.

  The reference computes it in that order on whole arrays (Proof/RefValue.lean). The kernel computes it in two grid
  regions: the first accumulates each batch's score matrices over 16 tiles of 256 tokens, from a zero block, and
  scales by 2⁻¹² at the last tile (Proof/ScoreRun.lean: addition of extended reals is commutative and associative, and
  dividing by 4096 is multiplying by 2⁻¹² on every extended real — no finiteness is used); the second computes the
  output tile by tile (Proof/OutValue.lean). Changes of float format are the identity on extended reals. So both
  runs end at the same array, and neither proof opens the precondition. The three frames are the generated frame
  certificates (the reference's is its run with the result dropped); the idealization rewrote nothing.
-/
import proofs.«139104_j27487790695180_1_alg».proof.Defs
import proofs.«139104_j27487790695180_1_alg».proof.Proof.Gen.Kernel
import proofs.«139104_j27487790695180_1_alg».proof.Proof.Gen.Kernel.Frame
import proofs.«139104_j27487790695180_1_alg».proof.Proof.Gen.KernelIdeal
import proofs.«139104_j27487790695180_1_alg».proof.Proof.Gen.KernelIdeal.Frame
import proofs.«139104_j27487790695180_1_alg».proof.Proof.Gen.ReferenceIdeal
import proofs.«139104_j27487790695180_1_alg».proof.Proof.Gen.ReferenceIdeal.Run
import proofs.«139104_j27487790695180_1_alg».proof.Proof.Gen.ReferenceIdeal.Read
import proofs.«139104_j27487790695180_1_alg».proof.Proof.Gen.Pre_finite_inputs
import proofs.«139104_j27487790695180_1_alg».proof.Proof.RefValue
import proofs.«139104_j27487790695180_1_alg».proof.Proof.KernelValue

noncomputable section

namespace Cert.Proof

open Idealize.ShloMosaic Idealize.SL.Sem

/-- The word-level kernel runs, and its arguments end unchanged. -/
theorem frame_k : Cert.frame_Kernel := fun m ρ _ => Cert.Kernel.Gen.frame m ρ

/-- The idealized kernel runs, and its arguments end unchanged. -/
theorem frame_ki : Cert.frame_KernelIdeal := fun m ρ _ => Cert.KernelIdeal.Gen.frame m ρ

/-- The idealized reference runs, and its arguments end unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the specification's result of those
    arguments in their result arrays. -/
theorem algebraic : Cert.algebraic_KernelIdeal_ReferenceIdeal := by
  intro m ρ m' ρ' _ hagree
  refine ⟨_, Cert.LinAttn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.LinAttn.Ref.value,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
